-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S100x64 : Shape := ⟨2, ![100, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x100 .f32) (main_arg1 : IVec S2x1600000 32) (main_arg2 : FVec F S100x64 .f32) (main_arg3 : FVec F S64 .f32) (main_arg4 : FVec F S64x32 .f32) (main_arg5 : FVec F S32 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S100x64 .f32 := Host.absf main_arg2
  let main_cst_0 : FVec F S_ .f32 := constant S_ .f32 0x7F800000#32
  let main_v5 : FVec F S100x64 .f32 := broadcastInDim S100x64 ![] bcast_S_S100x64 main_cst_0
  let main_v6 : IVec S100x64 1 := cmpf .olt main_v4 main_v5
  let main_c_1 : IVec S_ 1 := constantI S_ 1 1#1
  let main_v7 : IVec S_ 1 := (fun x v => Host.reduce IntOp.andi x v reducesTo_S100x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x100 : Shape := ⟨2, ![100000, 100]⟩
abbrev S2x1600000 : Shape := ⟨2, ![2, 1600000]⟩
abbrev S100x64 : Shape := ⟨2, ![100, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x100 : Shape := ⟨2, ![10000, 100]⟩
abbrev S10000x64 : Shape := ⟨2, ![10000, 64]⟩
abbrev S100000x1 : Shape := ⟨2, ![100000, 1]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 80
  | .vmem => 10
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S100x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x64, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S100000x64, .bf16⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x64, .bf16⟩
  | .hbm, ⟨41, _⟩ => ⟨S1700000x64, .f32⟩
  | .hbm, ⟨42, _⟩ => ⟨S_, .f32⟩
  | .hbm, ⟨43, _⟩ => ⟨S100000x64, .f32⟩
  | .hbm, ⟨44, _⟩ => ⟨S1700000x1, .i32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S100000x32, .f32⟩
  | .hbm, ⟨56, _⟩ => ⟨S100000x1, .f32⟩
  | .hbm, ⟨57, _⟩ => ⟨S100000x32, .f32⟩
  | .hbm, ⟨58, _⟩ => ⟨S100000x32, .f32⟩
  | .hbm, ⟨59, _⟩ => ⟨S100000x32, .bf16⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x32, .bf16⟩
  | .hbm, ⟨69, _⟩ => ⟨S1700000x32, .f32⟩
  | .hbm, ⟨70, _⟩ => ⟨S_, .f32⟩
  | .hbm, ⟨71, _⟩ => ⟨S100000x32, .f32⟩
  | .hbm, ⟨72, _⟩ => ⟨S1700000x1, .i32⟩
  | .hbm, ⟨73, _⟩ => ⟨S100000x32, .f32⟩
  | .hbm, ⟨74, _⟩ => ⟨S100000x1, .f32⟩
  | .hbm, ⟨75, _⟩ => ⟨S100000x32, .f32⟩
  | .hbm, ⟨76, _⟩ => ⟨S100000x32, .f32⟩
  | .hbm, ⟨77, _⟩ => ⟨S1x32, .f32⟩
  | .hbm, ⟨78, _⟩ => ⟨S100000x32, .f32⟩
  | .hbm, ⟨79, _⟩ => ⟨S100000x32, .f32⟩
  | .local _ .vmem, ⟨0, _⟩ => ⟨S10000x100, .f32⟩
  | .local _ .vmem, ⟨1, _⟩ => ⟨S10000x100, .f32⟩
  | .local _ .vmem, ⟨2, _⟩ => ⟨S100x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call1_cst : Ref sig .tc := ⟨.hbm, 52, rfl⟩
abbrev main_call1_v0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_5 : Ref sig .tc := ⟨.hbm, 60, rfl⟩
abbrev main_v43 : Ref sig .tc := ⟨.hbm, 61, rfl⟩
abbrev main_v44 : Ref sig .tc := ⟨.hbm, 62, rfl⟩
abbrev main_c_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x100_S10000x100_0_0 : ∀ a, (![0, 0] : Fin 2 → Nat) a + S10000x100.size a ≤ S10000x100.size a
  h_S10000x100 : 0 < S10000x100.numel
  bitsLt_bf16_f32 : FTy.bits .bf16 < FTy.bits .f32
  inb_S100x64_S100x64_0_0 : ∀ a, (![0, 0] : Fin 2 → Nat) a + S100x64.size a ≤ S100x64.size a
  h_S100x64 : 0 < S100x64.numel
  inb_S10000x64_S10000x64_0_0 : ∀ a, (![0, 0] : Fin 2 → Nat) a + S10000x64.size a ≤ S10000x64.size a
  h_S10000x64 : 0 < S10000x64.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S10000x100_S100x64_S10000x64_1_0_0_1_n_n_wf : DotDims.WF S10000x100 S100x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x100.size a ≤ S100000x100.size a
  hwx0_0 : ∀ i : grid0.Coords, EltTy.bits .f32 = 32 ∨ (Rect.block (s := S100000x100) S10000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x64.size a ≤ S100x64.size a
  hwx0_1 : ∀ i : grid0.Coords, EltTy.bits .f32 = 32 ∨ (Rect.block (s := S100x64) S100x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x100_S100x64_S10000x64_1_0_0_1_n_n : DotDims S10000x100 S100x64 S10000x64 where
  lhsContracting := [1]
  rhsContracting := [0]
  lhsNonContracting := [0]
  rhsNonContracting := [1]
  lhsBatch := []
  rhsBatch := []
  wf := dot_S10000x100_S100x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S100x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S100x64 : Shape := ⟨2, ![100, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 122
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S100x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x100_S100x64_S100000x64_1_0_0_1_n_n_wf : DotDims.WF S100000x100 S100x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x100_S100x64_S100000x64_1_0_0_1_n_n : DotDims S100000x100 S100x64 S100000x64 where
  lhsContracting := [1]
  rhsContracting := [0]
  lhsNonContracting := [0]
  rhsNonContracting := [1]
  lhsBatch := []
  rhsBatch := []
  wf := dot_S100000x100_S100x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Spec.lean ====
/-
  The matrix product of two arrays of extended reals, entry by entry: entry (p, q) of X·W is the sum over the
  contracted coordinate k of X(p, k) · W(k, q). Both programs multiply a tall array of node features by a small weight
  matrix; on the extended reals every arrangement of that product (row blocks multiplied one at a time, or the whole
  array at once) has this one value at each entry.
-/
import Idealize.ShloMosaic.Lib.ValueIdx
import Idealize.ShloMosaic.PureOps.Ideal

noncomputable section

namespace Cert.Spec

open Idealize.ShloMosaic Idealize.ShloMosaic.ValueIdx

/-- Entry (p, q) of the product of an [M, K] array and a [K, P] array: the sum over k of X(p, k) · W(k, q). -/
def mm {M K P : Nat} (X : (⟨2, ![M, K]⟩ : Shape).Idx → EReal) (W : (⟨2, ![K, P]⟩ : Shape).Idx → EReal) :
    (⟨2, ![M, P]⟩ : Shape).Idx → EReal :=
  fun i => ∑ k : Fin K, X (ix2 (i 0) k) * W (ix2 k (i 1))

/-- The product read at explicit coordinates. -/
theorem mm_apply {M K P : Nat} (X : (⟨2, ![M, K]⟩ : Shape).Idx → EReal) (W : (⟨2, ![K, P]⟩ : Shape).Idx → EReal)
    (p : Fin M) (q : Fin P) : mm X W (ix2 p q) = ∑ k : Fin K, X (ix2 p k) * W (ix2 k q) := rfl

end Cert.Spec

end
-- ==== Proof.RefValue.lean ====
/-
  What the reference program computes, as named functions of arrays.

  The reference works on the same graph (self-loops appended, degrees counted by target,
  dinv = degree^(-1/2) where positive and 0 elsewhere) but arranges a layer differently: for every edge it multiplies
  the gathered row of the source by ONE per-edge weight  dinv(source) · dinv(target), and adds those rows up by
  target; then the bias row. Features times the first weight matrix, a layer, the positive part, times the second
  weight matrix, a layer. The program's run states its result as one long composed term; here that term is shown to be
  the composition of these named pieces, and each of the two host matrix products is read as the plain sum of products.
-/
import proofs.«126492_j79388175499492_2_alg».proof.Proof.RefRun
import proofs.«126492_j79388175499492_2_alg».proof.Proof.Spec
import Idealize.ShloMosaic.Lib.ValueIdx
import Idealize.ShloMosaic.PureOps.Ideal.Laws

set_option maxRecDepth 16384

noncomputable section

namespace Cert.ReferenceIdeal.Net

open Cert.ReferenceIdeal Cert.ReferenceIdeal.Gen
open Idealize.ShloMosaic Idealize.ShloMosaic.TcCoe Idealize.SL.Sem Idealize.ShloMosaic.StableHlo

variable {F : FTy → Type} [FloatOps F]

/-! ## The pieces -/

/-- The edges' sources, with one self-loop per node appended. -/
def srcOf (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The edges' targets, with the self-loops appended. -/
def dstOf (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A vector of zeros, one per node. -/
def zerosN : FVec F S100000 .f32 := broadcastInDim S100000 ![] bcast_S_S100000 (constant S_ .f32 0x00000000#32)

/-- A node's degree: the number of edges whose target it is, as a sum of ones. -/
def deg (dst : IVec S1700000 32) : FVec F S100000 .f32 :=
  Host.scatterAdd scatter_S100000_S1700000x1_S1700000_n_0_0_1 (zerosN (F := F))
    (broadcastInDim S1700000x1 ![0] bcast_S1700000_S1700000x1_0 dst)
    (broadcastInDim S1700000 ![] bcast_S_S1700000 (constant S_ .f32 0x3F800000#32))

/-- Is the degree positive? -/
def degPos (dst : IVec S1700000 32) : IVec S100000 1 := cmpf .ogt (deg (F := F) dst) (zerosN (F := F))

/-- degree^(-1/2) where the degree is positive, 0 elsewhere. -/
def dinv (dst : IVec S1700000 32) : FVec F S100000 .f32 :=
  select (degPos (F := F) dst) (Host.rsqrt (deg (F := F) dst)) (broadcastInDim S100000 ![] bcast_S_S100000 (id (constant S_ .f32 0x00000000#32)))

/-- A gather index made nonnegative: a negative one has the node count added. -/
def normIdx (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The per-edge weight: dinv at the edge's source times dinv at its target. -/
def edgeW (D : FVec F S100000 .f32) (src dst : IVec S1700000 32) : FVec F S1700000 .f32 :=
  mulf (Host.gather gather_S100000_S1700000x1_S1700000_n_0_n_n_0_1_1 D (broadcastInDim S1700000x1 ![0] bcast_S1700000_S1700000x1_0 (normIdx src)))
    (Host.gather gather_S100000_S1700000x1_S1700000_n_0_n_n_0_1_1 D (broadcastInDim S1700000x1 ![0] bcast_S1700000_S1700000x1_0 (normIdx dst)))

/-- Rows gathered by source, each times its edge's weight, summed by target (64 columns). -/
def agg64 (H : FVec F S100000x64 .f32) (D : FVec F S100000 .f32) (src dst : IVec S1700000 32) : FVec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf (Host.gather gather_S100000x64_S1700000x1_S1700000x64_1_0_n_n_0_1_164 H (broadcastInDim S1700000x1 ![0] bcast_S1700000_S1700000x1_0 (normIdx src)))
      (broadcastInDim S1700000x64 ![0, 1] bcast_S1700000x1_S1700000x64_0_1 (broadcastInDim S1700000x1 ![0] bcast_S1700000_S1700000x1_0 (edgeW D src dst))))

/-- The first layer before its positive part: the sums plus the bias row. -/
def pre64 (H : FVec F S100000x64 .f32) (D : FVec F S100000 .f32) (src dst : IVec S1700000 32) (b : FVec F S64 .f32) : FVec F S100000x64 .f32 :=
  addf (agg64 H D src dst)
    (broadcastInDim S100000x64 ![0, 1] bcast_S1x64_S100000x64_0_1 (broadcastInDim S1x64 ![1] bcast_S64_S1x64_1 b))

/-- The positive part, entry by entry. -/
def relu64 (X : FVec F S100000x64 .f32) : FVec F S100000x64 .f32 :=
  maximumf X (broadcastInDim S100000x64 ![] bcast_S_S100000x64 (constant S_ .f32 0x00000000#32))

/-- Rows gathered by source, each times its edge's weight, summed by target (32 columns). -/
def agg32 (H : FVec F S100000x32 .f32) (D : FVec F S100000 .f32) (src dst : IVec S1700000 32) : FVec F S100000x32 .f32 :=
  Host.scatterAdd scatter_S100000x32_S1700000x1_S1700000x32_1_0_0_1
    (broadcastInDim S100000x32 ![] bcast_S_S100000x32 (constant S_ .f32 0x00000000#32))
    (broadcastInDim S1700000x1 ![0] bcast_S1700000_S1700000x1_0 dst)
    (mulf (Host.gather gather_S100000x32_S1700000x1_S1700000x32_1_0_n_n_0_1_132 H (broadcastInDim S1700000x1 ![0] bcast_S1700000_S1700000x1_0 (normIdx src)))
      (broadcastInDim S1700000x32 ![0, 1] bcast_S1700000x1_S1700000x32_0_1 (broadcastInDim S1700000x1 ![0] bcast_S1700000_S1700000x1_0 (edgeW D src dst))))

/-- The second layer: the sums plus the bias row. -/
def out32 (H : FVec F S100000x32 .f32) (D : FVec F S100000 .f32) (src dst : IVec S1700000 32) (b : FVec F S32 .f32) : FVec F S100000x32 .f32 :=
  addf (agg32 H D src dst)
    (broadcastInDim S100000x32 ![0, 1] bcast_S1x32_S100000x32_0_1 (broadcastInDim S1x32 ![1] bcast_S32_S1x32_1 b))

/-- The whole reference network as one function of its six arguments. -/
def net (x : FVec F S100000x100 .f32) (ei : IVec S2x1600000 32) (w1 : FVec F S100x64 .f32) (b1 : FVec F S64 .f32)
    (w2 : FVec F S64x32 .f32) (b2 : FVec F S32 .f32) : FVec F S100000x32 .f32 :=
  out32 (Host.dotGeneral dot_S100000x64_S64x32_S100000x32_1_0_0_1_n_n none
      (relu64 (pre64 (Host.dotGeneral dot_S100000x100_S100x64_S100000x64_1_0_0_1_n_n none x w1) (dinv (dstOf ei)) (srcOf ei) (dstOf ei) b1)) w2)
    (dinv (dstOf ei)) (srcOf ei) (dstOf ei) b2

/-- The run's composed term IS the network of the launch contents of the six arguments. -/
theorem res_eq_net (m : (ℓ : Loc nD τ sig) → Buf (Elt F) ℓ) (c : Dev nD) :
    Cert.ReferenceIdeal.ValueP.res_main_v87 m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v87
  rfl

/-! ## The two host matrix products, on the extended reals -/

theorem dot1_lhs0 (i : S100000x64.Idx) (q : dot_S100000x100_S100x64_S100000x64_1_0_0_1_n_n.contr.Idx) : (dot_S100000x100_S100x64_S100000x64_1_0_0_1_n_n.lhsIdx i q 0).val = (i 0).val := by
  unfold DotDims.lhsIdx
  rw [dif_neg (show ¬(0 : Fin S100000x100.rank) ∈ dot_S100000x100_S100x64_S100000x64_1_0_0_1_n_n.lhsBatch by decide), dif_pos (show (0 : Fin S100000x100.rank) ∈ dot_S100000x100_S100x64_S100000x64_1_0_0_1_n_n.lhsNonContracting by decide)]
  rfl
theorem dot1_lhs1 (i : S100000x64.Idx) (q : dot_S100000x100_S100x64_S100000x64_1_0_0_1_n_n.contr.Idx) : (dot_S100000x100_S100x64_S100000x64_1_0_0_1_n_n.lhsIdx i q 1).val = (q ⟨0, by decide⟩).val :=
  dot_S100000x100_S100x64_S100000x64_1_0_0_1_n_n.lhsIdx_val_of_single rfl i q
theorem dot1_rhs0 (i : S100000x64.Idx) (q : dot_S100000x100_S100x64_S100000x64_1_0_0_1_n_n.contr.Idx) : (dot_S100000x100_S100x64_S100000x64_1_0_0_1_n_n.rhsIdx i q 0).val = (q ⟨0, by decide⟩).val :=
  dot_S100000x100_S100x64_S100000x64_1_0_0_1_n_n.rhsIdx_val_of_single rfl i q
theorem dot1_rhs1 (i : S100000x64.Idx) (q : dot_S100000x100_S100x64_S100000x64_1_0_0_1_n_n.contr.Idx) : (dot_S100000x100_S100x64_S100000x64_1_0_0_1_n_n.rhsIdx i q 1).val = (i 1).val := by
  unfold DotDims.rhsIdx
  rw [dif_neg (show ¬(1 : Fin S100x64.rank) ∈ dot_S100000x100_S100x64_S100000x64_1_0_0_1_n_n.rhsBatch by decide), dif_pos (show (1 : Fin S100x64.rank) ∈ dot_S100000x100_S100x64_S100000x64_1_0_0_1_n_n.rhsNonContracting by decide)]
  rfl

/-- The host's product of a [100000, 100] array and a [100, 64] array is, on the extended reals, the sum over the contracted
    coordinate of the entries' products. -/
theorem dot1_eq_mm (x : FVec Ideal S100000x100 .f32) (w : FVec Ideal S100x64 .f32) :
    Host.dotGeneral dot_S100000x100_S100x64_S100000x64_1_0_0_1_n_n none x w = Cert.Spec.mm (M := 100000) (K := 100) (P := 64) x w := by
  funext i
  simp only [Host.dotGeneral]
  rw [Ideal.dotGeneral_apply, ← Equiv.sum_comp (ValueIdx.contrEquiv1 dot_S100000x100_S100x64_S100000x64_1_0_0_1_n_n 100 rfl rfl).symm]
  unfold Cert.Spec.mm
  refine Finset.sum_congr rfl fun k _ => ?_
  have hk := ValueIdx.contrEquiv1_symm_val dot_S100000x100_S100x64_S100000x64_1_0_0_1_n_n 100 rfl rfl k
  have el : dot_S100000x100_S100x64_S100000x64_1_0_0_1_n_n.lhsIdx i ((ValueIdx.contrEquiv1 dot_S100000x100_S100x64_S100000x64_1_0_0_1_n_n 100 rfl rfl).symm k) = ValueIdx.ix2 (i 0) k := funext fun a => Fin.ext (by
    match a with
    | ⟨0, _⟩ => exact dot1_lhs0 _ _
    | ⟨1, _⟩ => exact (dot1_lhs1 _ _).trans hk)
  have er : dot_S100000x100_S100x64_S100000x64_1_0_0_1_n_n.rhsIdx i ((ValueIdx.contrEquiv1 dot_S100000x100_S100x64_S100000x64_1_0_0_1_n_n 100 rfl rfl).symm k) = ValueIdx.ix2 k (i 1) := funext fun a => Fin.ext (by
    match a with
    | ⟨0, _⟩ => exact (dot1_rhs0 _ _).trans hk
    | ⟨1, _⟩ => exact dot1_rhs1 _ _)
  rw [el, er]
  all_goals rfl

theorem dot2_lhs0 (i : S100000x32.Idx) (q : dot_S100000x64_S64x32_S100000x32_1_0_0_1_n_n.contr.Idx) : (dot_S100000x64_S64x32_S100000x32_1_0_0_1_n_n.lhsIdx i q 0).val = (i 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
theorem dot2_lhs1 (i : S100000x32.Idx) (q : dot_S100000x64_S64x32_S100000x32_1_0_0_1_n_n.contr.Idx) : (dot_S100000x64_S64x32_S100000x32_1_0_0_1_n_n.lhsIdx i q 1).val = (q ⟨0, by decide⟩).val :=
  dot_S100000x64_S64x32_S100000x32_1_0_0_1_n_n.lhsIdx_val_of_single rfl i q
theorem dot2_rhs0 (i : S100000x32.Idx) (q : dot_S100000x64_S64x32_S100000x32_1_0_0_1_n_n.contr.Idx) : (dot_S100000x64_S64x32_S100000x32_1_0_0_1_n_n.rhsIdx i q 0).val = (q ⟨0, by decide⟩).val :=
  dot_S100000x64_S64x32_S100000x32_1_0_0_1_n_n.rhsIdx_val_of_single rfl i q
theorem dot2_rhs1 (i : S100000x32.Idx) (q : dot_S100000x64_S64x32_S100000x32_1_0_0_1_n_n.contr.Idx) : (dot_S100000x64_S64x32_S100000x32_1_0_0_1_n_n.rhsIdx i q 1).val = (i 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl

/-- The host's product of a [100000, 64] array and a [64, 32] array is, on the extended reals, the sum over the contracted
    coordinate of the entries' products. -/
theorem dot2_eq_mm (x : FVec Ideal S100000x64 .f32) (w : FVec Ideal S64x32 .f32) :
    Host.dotGeneral dot_S100000x64_S64x32_S100000x32_1_0_0_1_n_n none x w = Cert.Spec.mm (M := 100000) (K := 64) (P := 32) x w := by
  funext i
  simp only [Host.dotGeneral]
  rw [Ideal.dotGeneral_apply, ← Equiv.sum_comp (ValueIdx.contrEquiv1 dot_S100000x64_S64x32_S100000x32_1_0_0_1_n_n 64 rfl rfl).symm]
  unfold Cert.Spec.mm
  refine Finset.sum_congr rfl fun k _ => ?_
  have hk := ValueIdx.contrEquiv1_symm_val dot_S100000x64_S64x32_S100000x32_1_0_0_1_n_n 64 rfl rfl k
  have el : dot_S100000x64_S64x32_S100000x32_1_0_0_1_n_n.lhsIdx i ((ValueIdx.contrEquiv1 dot_S100000x64_S64x32_S100000x32_1_0_0_1_n_n 64 rfl rfl).symm k) = ValueIdx.ix2 (i 0) k := funext fun a => Fin.ext (by
    match a with
    | ⟨0, _⟩ => exact dot2_lhs0 _ _
    | ⟨1, _⟩ => exact (dot2_lhs1 _ _).trans hk)
  have er : dot_S100000x64_S64x32_S100000x32_1_0_0_1_n_n.rhsIdx i ((ValueIdx.contrEquiv1 dot_S100000x64_S64x32_S100000x32_1_0_0_1_n_n 64 rfl rfl).symm k) = ValueIdx.ix2 k (i 1) := funext fun a => Fin.ext (by
    match a with
    | ⟨0, _⟩ => exact (dot2_rhs0 _ _).trans hk
    | ⟨1, _⟩ => exact dot2_rhs1 _ _)
  rw [el, er]
  all_goals rfl

end Cert.ReferenceIdeal.Net

end
-- ==== Proof.KernelRun.lean ====
/-
  The idealized kernel program's run, with the result kept. The program is seven segments in a row: host operations,
  the first matrix-product region, host operations, the second region, host operations. Each segment takes the
  TensorCore's buffers from one valuation to the next (W0, the launch memory, through W7), and the library's theorem
  for such a chain says: every weakly fair execution terminates, nothing faults, and at the end every buffer that
  outlives the program holds what the last valuation W7 gives it. The frame claim keeps only the six argument arrays
  of that; here the result array is kept as well, which is what a statement about the program's VALUE needs.
-/
import proofs.«126492_j79388175499492_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final memory every buffer that
    outlives the program holds the contents the last segment boundary gives it: the seven segments chained from the
    launch memory, the last thread state read against the final state. -/
theorem ends_at_last_boundary :
    θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The run with the result named: the result array ends at the last boundary's contents of its buffer, and the six
    argument arrays end as launched. -/
theorem run :
    θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v59 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)
    (ends_at_last_boundary m ρ)

end Cert.KernelIdeal.Run

end
-- ==== Proof.LibFoldStretch.lean ====
/-
  Two general facts about a straight line of host operations read as a fold over buffer contents, for any program
  signature and any values.

  * The fold over a concatenation of two lines is the fold over the first, then over the second — so a long line can
    be read stretch by stretch, each stretch for ARBITRARY earlier contents (a variable keeps every term small).
  * A typed reference carries its buffer's contents to the value's type and back along one equation of types; the two
    transports undo each other. After the results of a stretch of operations over typed references are rewritten out,
    every intermediate buffer appears as "back ∘ forth" around the operation's value, and these pairs cancel
    syntactically; what is left sits on the stretch's input buffers only, where it is a cast of a variable.
  With both, a stretch of operations outlined from a called function (spelt over typed references) is read as one
  plain function of the few buffers it reads, by: rewrite the results, cancel the pairs, generalize the input
  buffers' contents, and compare.
-/
import Idealize.ShloMosaic.Lib.StableHlo.Run

noncomputable section

namespace Cert.LibFoldStretch

open Idealize.ShloMosaic Idealize.ShloMosaic.StableHlo

variable {τ : Topo} {sig : RefSig} {Val : EltTy → Type}

/-- Folding the operations' results over a concatenation is folding over the first list, then over the second. -/
theorem after_append (xs ys : List (HloOp τ sig Val)) (V : Valuation τ sig Val) :
    after (xs ++ ys) V = after ys (after xs V) := by
  induction xs generalizing V with
  | nil => rfl
  | cons op xs ih => rw [List.cons_append, after_cons, after_cons, ih]

/-- A typed reference's transport to its buffer's type and back is the identity. -/
theorem ofBuf_toBuf {T : BufTy} (x : TRef sig T) (v : T.Contents Val) : x.ofBuf (x.toBuf v) = v := by
  obtain ⟨r, h, h2, h3⟩ := x
  subst h
  rfl

/-- A typed reference's transport from its buffer's type and back is the identity. -/
theorem toBuf_ofBuf {T : BufTy} (x : TRef sig T) (v : x.ref.ty.Contents Val) : x.toBuf (x.ofBuf v) = v := by
  obtain ⟨r, h, h2, h3⟩ := x
  subst h
  rfl

end Cert.LibFoldStretch

end
-- ==== Proof.KernelValue.lean ====
/-
  What the idealized kernel program computes, read off its run.

  The program works on a graph with 100000 nodes and 1600000 edges given as a [2, 1600000] integer array (row 0 the
  sources, row 1 the targets). It appends one self-loop per node (1700000 edges in all), counts for every node v the
  edges whose target is v (its degree, a sum of ones scattered by target), and takes  dinv(v) = degree(v)^(-1/2)  where
  the degree is positive, 0 elsewhere. A layer then takes a feature array H (one row per node), scales row u by
  dinv(u), gathers for every edge the scaled row of its source, adds the gathered rows up by target, scales row v of
  the sums by dinv(v) and adds a bias row. The network is: features times the first weight matrix (the first region),
  a layer, the positive part, times the second weight matrix (the second region), a layer.

  Here each of these pieces is a named function of arrays, each stretch of host operations is read — for ANY contents
  of the buffers before it — as those functions of the few buffers it reads, and the contents of the result buffer at
  the last segment boundary are followed back, boundary by boundary, to the launch memory.
-/
import proofs.«126492_j79388175499492_2_alg».proof.Proof.Gen.KernelIdeal.Frame
import proofs.«126492_j79388175499492_2_alg».proof.Proof.LibFoldStretch
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable {F : FTy → Type} [FloatOps F]

/-! ## The pieces, as functions of arrays -/

/-- The edges' sources (row 0 of the edge array), followed by the node numbers 0 … 99999: one self-loop per node. -/
def srcOf (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The edges' targets, with the self-loops appended. -/
def dstOf (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A vector of zeros, one per node. -/
def zerosN : FVec F S100000 .f32 := broadcastInDim S100000 ![] bcast_S_S100000 (constant S_ .f32 0x00000000#32)

/-- A node's degree: the number of edges whose target it is, as a sum of ones. -/
def deg (dst : IVec S1700000 32) : FVec F S100000 .f32 :=
  Host.scatterAdd scatter_S100000_S1700000x1_S1700000_n_0_0_1 (zerosN (F := F))
    (broadcastInDim S1700000x1 ![0] bcast_S1700000_S1700000x1_0 dst)
    (broadcastInDim S1700000 ![] bcast_S_S1700000 (constant S_ .f32 0x3F800000#32))

/-- Is the degree positive? -/
def degPos (dst : IVec S1700000 32) : IVec S100000 1 := cmpf .ogt (deg (F := F) dst) (zerosN (F := F))

/-- degree^(-1/2) where the degree is positive, 0 elsewhere. -/
def dinv (dst : IVec S1700000 32) : FVec F S100000 .f32 :=
  select (degPos (F := F) dst) (Host.rsqrt (deg (F := F) dst)) (broadcastInDim S100000 ![] bcast_S_S100000 (id (constant S_ .f32 0x00000000#32)))

/-- A gather index made nonnegative: a negative one has the node count added. -/
def normIdx (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The per-node scale as a 64-column array: the same value along a row. -/
def col64 (D : FVec F S100000 .f32) : FVec F S100000x64 .f32 :=
  broadcastInDim S100000x64 ![0, 1] bcast_S100000x1_S100000x64_0_1 (broadcastInDim S100000x1 ![0] bcast_S100000_S100000x1_0 D)

/-- The same for 32 columns. -/
def col32 (D : FVec F S100000 .f32) : FVec F S100000x32 .f32 :=
  broadcastInDim S100000x32 ![0, 1] bcast_S100000x1_S100000x32_0_1 (broadcastInDim S100000x1 ![0] bcast_S100000_S100000x1_0 D)

/-- Rows scaled, gathered by source, summed by target (64 columns). -/
def agg64 (H : FVec F S100000x64 .f32) (D : FVec F S100000 .f32) (src dst : IVec S1700000 32) : FVec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (extf .f32 (Host.gather gather_S100000x64_S1700000x1_S1700000x64_1_0_n_n_0_1_164 (truncf .bf16 (mulf H (col64 D)) bitsLt_bf16_f32)
      (broadcastInDim S1700000x1 ![0] bcast_S1700000_S1700000x1_0 (normIdx src))) bitsLt_bf16_f32)

/-- The first layer before its positive part: the sums scaled by target, plus the bias row. -/
def pre64 (H : FVec F S100000x64 .f32) (D : FVec F S100000 .f32) (src dst : IVec S1700000 32) (b : FVec F S64 .f32) : FVec F S100000x64 .f32 :=
  addf (mulf (col64 D) (agg64 H D src dst))
    (broadcastInDim S100000x64 ![0, 1] bcast_S1x64_S100000x64_0_1 (broadcastInDim S1x64 ![1] bcast_S64_S1x64_1 b))

/-- The positive part, entry by entry. -/
def relu64 (X : FVec F S100000x64 .f32) : FVec F S100000x64 .f32 :=
  maximumf X (broadcastInDim S100000x64 ![] bcast_S_S100000x64 (constant S_ .f32 0x00000000#32))

/-- Rows scaled, gathered by source, summed by target (32 columns). -/
def agg32 (H : FVec F S100000x32 .f32) (D : FVec F S100000 .f32) (src dst : IVec S1700000 32) : FVec F S100000x32 .f32 :=
  Host.scatterAdd scatter_S100000x32_S1700000x1_S1700000x32_1_0_0_1
    (broadcastInDim S100000x32 ![] bcast_S_S100000x32 (constant S_ .f32 0x00000000#32))
    (broadcastInDim S1700000x1 ![0] bcast_S1700000_S1700000x1_0 dst)
    (extf .f32 (Host.gather gather_S100000x32_S1700000x1_S1700000x32_1_0_n_n_0_1_132 (truncf .bf16 (mulf H (col32 D)) bitsLt_bf16_f32)
      (broadcastInDim S1700000x1 ![0] bcast_S1700000_S1700000x1_0 (normIdx src))) bitsLt_bf16_f32)

/-- The second layer: the sums scaled by target, plus the bias row. -/
def out32 (H : FVec F S100000x32 .f32) (D : FVec F S100000 .f32) (src dst : IVec S1700000 32) (b : FVec F S32 .f32) : FVec F S100000x32 .f32 :=
  addf (mulf (col32 D) (agg32 H D src dst))
    (broadcastInDim S100000x32 ![0, 1] bcast_S1x32_S100000x32_0_1 (broadcastInDim S1x32 ![1] bcast_S32_S1x32_1 b))

/-! ## Each stretch of host operations, from ANY contents `V` of the buffers before it -/

theorem s0_v3 (V : Valuation τ sig (Elt F)) : StableHlo.after (hostOps0 (F := F)) V (Proc.devRef .tc main_v3) = srcOf (V (Proc.devRef .tc main_arg1)) := by
  after_results; rfl
theorem s0_v6 (V : Valuation τ sig (Elt F)) : StableHlo.after (hostOps0 (F := F)) V (Proc.devRef .tc main_v6) = dstOf (V (Proc.devRef .tc main_arg1)) := by
  after_results; rfl
theorem s0_v12 (V : Valuation τ sig (Elt F)) : StableHlo.after (hostOps0 (F := F)) V (Proc.devRef .tc main_v12) = degPos (F := F) (dstOf (V (Proc.devRef .tc main_arg1))) := by
  after_results; rfl
theorem s0_v13 (V : Valuation τ sig (Elt F)) : StableHlo.after (hostOps0 (F := F)) V (Proc.devRef .tc main_v13) = Host.rsqrt (deg (F := F) (dstOf (V (Proc.devRef .tc main_arg1)))) := by
  after_results; rfl
theorem s0_cst2 (V : Valuation τ sig (Elt F)) : StableHlo.after (hostOps0 (F := F)) V (Proc.devRef .tc main_cst_2) = constant (F := F) S_ .f32 0x00000000#32 := by
  after_results
theorem s0_keep_main_arg0 (V : Valuation τ sig (Elt F)) : StableHlo.after (hostOps0 (F := F)) V (Proc.devRef .tc main_arg0) = V (Proc.devRef .tc main_arg0) := by
  after_results
theorem s0_keep_main_arg2 (V : Valuation τ sig (Elt F)) : StableHlo.after (hostOps0 (F := F)) V (Proc.devRef .tc main_arg2) = V (Proc.devRef .tc main_arg2) := by
  after_results
theorem s0_keep_main_arg3 (V : Valuation τ sig (Elt F)) : StableHlo.after (hostOps0 (F := F)) V (Proc.devRef .tc main_arg3) = V (Proc.devRef .tc main_arg3) := by
  after_results
theorem s0_keep_main_arg4 (V : Valuation τ sig (Elt F)) : StableHlo.after (hostOps0 (F := F)) V (Proc.devRef .tc main_arg4) = V (Proc.devRef .tc main_arg4) := by
  after_results
theorem s0_keep_main_arg5 (V : Valuation τ sig (Elt F)) : StableHlo.after (hostOps0 (F := F)) V (Proc.devRef .tc main_arg5) = V (Proc.devRef .tc main_arg5) := by
  after_results

/-- The outlined selection: where the degree is positive its inverse square root, elsewhere the broadcast zero. -/
theorem s01_v14 (V : Valuation τ sig (Elt F)) : StableHlo.after (hostOps0_1 (F := F)) V (Proc.devRef .tc main_v14)
    = select (V (Proc.devRef .tc main_v12)) (V (Proc.devRef .tc main_v13)) (broadcastInDim S100000 ![] bcast_S_S100000 (id (V (Proc.devRef .tc main_cst_2)))) := by
  after_results
  simp only [Cert.LibFoldStretch.ofBuf_toBuf]
  rfl
theorem s01_keep_main_v3 (V : Valuation τ sig (Elt F)) : StableHlo.after (hostOps0_1 (F := F)) V (Proc.devRef .tc main_v3) = V (Proc.devRef .tc main_v3) := by
  after_results
theorem s01_keep_main_v6 (V : Valuation τ sig (Elt F)) : StableHlo.after (hostOps0_1 (F := F)) V (Proc.devRef .tc main_v6) = V (Proc.devRef .tc main_v6) := by
  after_results
theorem s01_keep_main_arg0 (V : Valuation τ sig (Elt F)) : StableHlo.after (hostOps0_1 (F := F)) V (Proc.devRef .tc main_arg0) = V (Proc.devRef .tc main_arg0) := by
  after_results
theorem s01_keep_main_arg2 (V : Valuation τ sig (Elt F)) : StableHlo.after (hostOps0_1 (F := F)) V (Proc.devRef .tc main_arg2) = V (Proc.devRef .tc main_arg2) := by
  after_results
theorem s01_keep_main_arg3 (V : Valuation τ sig (Elt F)) : StableHlo.after (hostOps0_1 (F := F)) V (Proc.devRef .tc main_arg3) = V (Proc.devRef .tc main_arg3) := by
  after_results
theorem s01_keep_main_arg4 (V : Valuation τ sig (Elt F)) : StableHlo.after (hostOps0_1 (F := F)) V (Proc.devRef .tc main_arg4) = V (Proc.devRef .tc main_arg4) := by
  after_results
theorem s01_keep_main_arg5 (V : Valuation τ sig (Elt F)) : StableHlo.after (hostOps0_1 (F := F)) V (Proc.devRef .tc main_arg5) = V (Proc.devRef .tc main_arg5) := by
  after_results

set_option maxHeartbeats 4000000 in
theorem s1_v36 (V : Valuation τ sig (Elt F)) : StableHlo.after (hostOps1 (F := F)) V (Proc.devRef .tc main_v36)
    = pre64 (V (Proc.devRef .tc main_v15)) (V (Proc.devRef .tc main_v14)) (V (Proc.devRef .tc main_v3)) (V (Proc.devRef .tc main_v6)) (V (Proc.devRef .tc main_arg3)) := by
  after_results_simp
  unfold pre64 agg64 col64 normIdx
  rfl
theorem s1_keep_main_v14 (V : Valuation τ sig (Elt F)) : StableHlo.after (hostOps1 (F := F)) V (Proc.devRef .tc main_v14) = V (Proc.devRef .tc main_v14) := by
  after_results
theorem s1_keep_main_v3 (V : Valuation τ sig (Elt F)) : StableHlo.after (hostOps1 (F := F)) V (Proc.devRef .tc main_v3) = V (Proc.devRef .tc main_v3) := by
  after_results
theorem s1_keep_main_v6 (V : Valuation τ sig (Elt F)) : StableHlo.after (hostOps1 (F := F)) V (Proc.devRef .tc main_v6) = V (Proc.devRef .tc main_v6) := by
  after_results
theorem s1_keep_main_arg4 (V : Valuation τ sig (Elt F)) : StableHlo.after (hostOps1 (F := F)) V (Proc.devRef .tc main_arg4) = V (Proc.devRef .tc main_arg4) := by
  after_results
theorem s1_keep_main_arg5 (V : Valuation τ sig (Elt F)) : StableHlo.after (hostOps1 (F := F)) V (Proc.devRef .tc main_arg5) = V (Proc.devRef .tc main_arg5) := by
  after_results

/-- The outlined positive part. -/
theorem s11_v37 (V : Valuation τ sig (Elt F)) : StableHlo.after (hostOps1_1 (F := F)) V (Proc.devRef .tc main_v37) = relu64 (V (Proc.devRef .tc main_v36)) := by
  after_results
  simp only [Cert.LibFoldStretch.ofBuf_toBuf]
  rfl
theorem s11_keep_main_v14 (V : Valuation τ sig (Elt F)) : StableHlo.after (hostOps1_1 (F := F)) V (Proc.devRef .tc main_v14) = V (Proc.devRef .tc main_v14) := by
  after_results
theorem s11_keep_main_v3 (V : Valuation τ sig (Elt F)) : StableHlo.after (hostOps1_1 (F := F)) V (Proc.devRef .tc main_v3) = V (Proc.devRef .tc main_v3) := by
  after_results
theorem s11_keep_main_v6 (V : Valuation τ sig (Elt F)) : StableHlo.after (hostOps1_1 (F := F)) V (Proc.devRef .tc main_v6) = V (Proc.devRef .tc main_v6) := by
  after_results
theorem s11_keep_main_arg4 (V : Valuation τ sig (Elt F)) : StableHlo.after (hostOps1_1 (F := F)) V (Proc.devRef .tc main_arg4) = V (Proc.devRef .tc main_arg4) := by
  after_results
theorem s11_keep_main_arg5 (V : Valuation τ sig (Elt F)) : StableHlo.after (hostOps1_1 (F := F)) V (Proc.devRef .tc main_arg5) = V (Proc.devRef .tc main_arg5) := by
  after_results

set_option maxHeartbeats 4000000 in
theorem s2_v59 (V : Valuation τ sig (Elt F)) : StableHlo.after (hostOps2 (F := F)) V (Proc.devRef .tc main_v59)
    = out32 (V (Proc.devRef .tc main_v38)) (V (Proc.devRef .tc main_v14)) (V (Proc.devRef .tc main_v3)) (V (Proc.devRef .tc main_v6)) (V (Proc.devRef .tc main_arg5)) := by
  after_results_simp
  unfold out32 agg32 col32 normIdx
  rfl

end Cert.KernelIdeal.Net

end
-- ==== Proof.KernelChain.lean ====
/-
  The contents of the buffers the kernel program's later segments read, at every segment boundary, followed back to
  the launch memory: after the first stretch the source and target vectors and the degree test are functions of the
  edge array alone; the selection makes dinv; the first region leaves its output array; the next stretch the first
  layer of that array; the positive part; the second region its output array; the last stretch the second layer.
  Nothing in between writes an argument array, the edge vectors or dinv.
-/
import proofs.«126492_j79388175499492_2_alg».proof.Proof.KernelValue

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## After the first stretch (from the launch memory) -/

theorem w1_v3 : W1 m ρ c (Proc.devRef .tc main_v3) = srcOf (m ((c : Thread nD τ).loc main_arg1)) := s0_v3 (W0 m ρ c)
theorem w1_v6 : W1 m ρ c (Proc.devRef .tc main_v6) = dstOf (m ((c : Thread nD τ).loc main_arg1)) := s0_v6 (W0 m ρ c)
theorem w1_v12 : W1 m ρ c (Proc.devRef .tc main_v12) = degPos (F := F) (dstOf (m ((c : Thread nD τ).loc main_arg1))) := s0_v12 (W0 m ρ c)
theorem w1_v13 : W1 m ρ c (Proc.devRef .tc main_v13) = Host.rsqrt (deg (F := F) (dstOf (m ((c : Thread nD τ).loc main_arg1)))) := s0_v13 (W0 m ρ c)
theorem w1_cst2 : W1 m ρ c (Proc.devRef .tc main_cst_2) = constant (F := F) S_ .f32 0x00000000#32 := s0_cst2 (W0 m ρ c)
theorem w1_main_arg0 : W1 m ρ c (Proc.devRef .tc main_arg0) = (m ((c : Thread nD τ).loc main_arg0)) := s0_keep_main_arg0 (W0 m ρ c)
theorem w1_main_arg2 : W1 m ρ c (Proc.devRef .tc main_arg2) = (m ((c : Thread nD τ).loc main_arg2)) := s0_keep_main_arg2 (W0 m ρ c)
theorem w1_main_arg3 : W1 m ρ c (Proc.devRef .tc main_arg3) = (m ((c : Thread nD τ).loc main_arg3)) := s0_keep_main_arg3 (W0 m ρ c)
theorem w1_main_arg4 : W1 m ρ c (Proc.devRef .tc main_arg4) = (m ((c : Thread nD τ).loc main_arg4)) := s0_keep_main_arg4 (W0 m ρ c)
theorem w1_main_arg5 : W1 m ρ c (Proc.devRef .tc main_arg5) = (m ((c : Thread nD τ).loc main_arg5)) := s0_keep_main_arg5 (W0 m ρ c)

/-! ## After the selection: dinv -/

theorem w2_v14 : W2 m ρ c (Proc.devRef .tc main_v14) = (dinv (F := F) (dstOf (m ((c : Thread nD τ).loc main_arg1)))) :=
  (s01_v14 (W1 m ρ c)).trans (by rw [w1_v12, w1_v13, w1_cst2]; rfl)
theorem w2_main_v3 : W2 m ρ c (Proc.devRef .tc main_v3) = (srcOf (m ((c : Thread nD τ).loc main_arg1))) := (s01_keep_main_v3 (W1 m ρ c)).trans (w1_v3 m ρ c)
theorem w2_main_v6 : W2 m ρ c (Proc.devRef .tc main_v6) = (dstOf (m ((c : Thread nD τ).loc main_arg1))) := (s01_keep_main_v6 (W1 m ρ c)).trans (w1_v6 m ρ c)
theorem w2_main_arg0 : W2 m ρ c (Proc.devRef .tc main_arg0) = (m ((c : Thread nD τ).loc main_arg0)) := (s01_keep_main_arg0 (W1 m ρ c)).trans (w1_main_arg0 m ρ c)
theorem w2_main_arg2 : W2 m ρ c (Proc.devRef .tc main_arg2) = (m ((c : Thread nD τ).loc main_arg2)) := (s01_keep_main_arg2 (W1 m ρ c)).trans (w1_main_arg2 m ρ c)
theorem w2_main_arg3 : W2 m ρ c (Proc.devRef .tc main_arg3) = (m ((c : Thread nD τ).loc main_arg3)) := (s01_keep_main_arg3 (W1 m ρ c)).trans (w1_main_arg3 m ρ c)
theorem w2_main_arg4 : W2 m ρ c (Proc.devRef .tc main_arg4) = (m ((c : Thread nD τ).loc main_arg4)) := (s01_keep_main_arg4 (W1 m ρ c)).trans (w1_main_arg4 m ρ c)
theorem w2_main_arg5 : W2 m ρ c (Proc.devRef .tc main_arg5) = (m ((c : Thread nD τ).loc main_arg5)) := (s01_keep_main_arg5 (W1 m ρ c)).trans (w1_main_arg5 m ρ c)

/-! ## After the first region -/

/-- The first region's output array, as the pipeline leaves it. -/
theorem w3_v15 : W3 m ρ c (Proc.devRef .tc main_v15) = (dat0 (V2 m ρ) c).arrAt 2 cfg0.N := W3_arr m ρ c 2
theorem w3_main_v14 : W3 m ρ c (Proc.devRef .tc main_v14) = (dinv (F := F) (dstOf (m ((c : Thread nD τ).loc main_arg1)))) := (W3_of_ne m ρ c main_v14 (by decide)).trans (w2_v14 m ρ c)
theorem w3_main_v3 : W3 m ρ c (Proc.devRef .tc main_v3) = (srcOf (m ((c : Thread nD τ).loc main_arg1))) := (W3_of_ne m ρ c main_v3 (by decide)).trans (w2_main_v3 m ρ c)
theorem w3_main_v6 : W3 m ρ c (Proc.devRef .tc main_v6) = (dstOf (m ((c : Thread nD τ).loc main_arg1))) := (W3_of_ne m ρ c main_v6 (by decide)).trans (w2_main_v6 m ρ c)
theorem w3_main_arg3 : W3 m ρ c (Proc.devRef .tc main_arg3) = (m ((c : Thread nD τ).loc main_arg3)) := (W3_of_ne m ρ c main_arg3 (by decide)).trans (w2_main_arg3 m ρ c)
theorem w3_main_arg4 : W3 m ρ c (Proc.devRef .tc main_arg4) = (m ((c : Thread nD τ).loc main_arg4)) := (W3_of_ne m ρ c main_arg4 (by decide)).trans (w2_main_arg4 m ρ c)
theorem w3_main_arg5 : W3 m ρ c (Proc.devRef .tc main_arg5) = (m ((c : Thread nD τ).loc main_arg5)) := (W3_of_ne m ρ c main_arg5 (by decide)).trans (w2_main_arg5 m ρ c)

/-! ## After the first layer's stretch, and its positive part -/

theorem w4_v36 : W4 m ρ c (Proc.devRef .tc main_v36) = pre64 ((dat0 (V2 m ρ) c).arrAt 2 cfg0.N) (dinv (F := F) (dstOf (m ((c : Thread nD τ).loc main_arg1)))) (srcOf (m ((c : Thread nD τ).loc main_arg1))) (dstOf (m ((c : Thread nD τ).loc main_arg1))) (m ((c : Thread nD τ).loc main_arg3)) :=
  (s1_v36 (W3 m ρ c)).trans (by rw [w3_v15, w3_main_v14, w3_main_v3, w3_main_v6, w3_main_arg3])
theorem w4_main_v14 : W4 m ρ c (Proc.devRef .tc main_v14) = (dinv (F := F) (dstOf (m ((c : Thread nD τ).loc main_arg1)))) := (s1_keep_main_v14 (W3 m ρ c)).trans (w3_main_v14 m ρ c)
theorem w4_main_v3 : W4 m ρ c (Proc.devRef .tc main_v3) = (srcOf (m ((c : Thread nD τ).loc main_arg1))) := (s1_keep_main_v3 (W3 m ρ c)).trans (w3_main_v3 m ρ c)
theorem w4_main_v6 : W4 m ρ c (Proc.devRef .tc main_v6) = (dstOf (m ((c : Thread nD τ).loc main_arg1))) := (s1_keep_main_v6 (W3 m ρ c)).trans (w3_main_v6 m ρ c)
theorem w4_main_arg4 : W4 m ρ c (Proc.devRef .tc main_arg4) = (m ((c : Thread nD τ).loc main_arg4)) := (s1_keep_main_arg4 (W3 m ρ c)).trans (w3_main_arg4 m ρ c)
theorem w4_main_arg5 : W4 m ρ c (Proc.devRef .tc main_arg5) = (m ((c : Thread nD τ).loc main_arg5)) := (s1_keep_main_arg5 (W3 m ρ c)).trans (w3_main_arg5 m ρ c)

theorem w5_v37 : W5 m ρ c (Proc.devRef .tc main_v37) = relu64 (pre64 ((dat0 (V2 m ρ) c).arrAt 2 cfg0.N) (dinv (F := F) (dstOf (m ((c : Thread nD τ).loc main_arg1)))) (srcOf (m ((c : Thread nD τ).loc main_arg1))) (dstOf (m ((c : Thread nD τ).loc main_arg1))) (m ((c : Thread nD τ).loc main_arg3))) :=
  (s11_v37 (W4 m ρ c)).trans (by rw [w4_v36])
theorem w5_main_v14 : W5 m ρ c (Proc.devRef .tc main_v14) = (dinv (F := F) (dstOf (m ((c : Thread nD τ).loc main_arg1)))) := (s11_keep_main_v14 (W4 m ρ c)).trans (w4_main_v14 m ρ c)
theorem w5_main_v3 : W5 m ρ c (Proc.devRef .tc main_v3) = (srcOf (m ((c : Thread nD τ).loc main_arg1))) := (s11_keep_main_v3 (W4 m ρ c)).trans (w4_main_v3 m ρ c)
theorem w5_main_v6 : W5 m ρ c (Proc.devRef .tc main_v6) = (dstOf (m ((c : Thread nD τ).loc main_arg1))) := (s11_keep_main_v6 (W4 m ρ c)).trans (w4_main_v6 m ρ c)
theorem w5_main_arg4 : W5 m ρ c (Proc.devRef .tc main_arg4) = (m ((c : Thread nD τ).loc main_arg4)) := (s11_keep_main_arg4 (W4 m ρ c)).trans (w4_main_arg4 m ρ c)
theorem w5_main_arg5 : W5 m ρ c (Proc.devRef .tc main_arg5) = (m ((c : Thread nD τ).loc main_arg5)) := (s11_keep_main_arg5 (W4 m ρ c)).trans (w4_main_arg5 m ρ c)

/-! ## After the second region, and the last stretch -/

/-- The second region's output array, as the pipeline leaves it. -/
theorem w6_v38 : W6 m ρ c (Proc.devRef .tc main_v38) = (dat1 (V5 m ρ) c).arrAt 2 cfg1.N := W6_arr m ρ c 2
theorem w6_main_v14 : W6 m ρ c (Proc.devRef .tc main_v14) = (dinv (F := F) (dstOf (m ((c : Thread nD τ).loc main_arg1)))) := (W6_of_ne m ρ c main_v14 (by decide)).trans (w5_main_v14 m ρ c)
theorem w6_main_v3 : W6 m ρ c (Proc.devRef .tc main_v3) = (srcOf (m ((c : Thread nD τ).loc main_arg1))) := (W6_of_ne m ρ c main_v3 (by decide)).trans (w5_main_v3 m ρ c)
theorem w6_main_v6 : W6 m ρ c (Proc.devRef .tc main_v6) = (dstOf (m ((c : Thread nD τ).loc main_arg1))) := (W6_of_ne m ρ c main_v6 (by decide)).trans (w5_main_v6 m ρ c)
theorem w6_main_arg5 : W6 m ρ c (Proc.devRef .tc main_arg5) = (m ((c : Thread nD τ).loc main_arg5)) := (W6_of_ne m ρ c main_arg5 (by decide)).trans (w5_main_arg5 m ρ c)

/-- The result buffer at the last boundary: the second layer of the second region's output array. -/
theorem w7_v59 : W7 m ρ c (Proc.devRef .tc main_v59) = out32 ((dat1 (V5 m ρ) c).arrAt 2 cfg1.N) (dinv (F := F) (dstOf (m ((c : Thread nD τ).loc main_arg1)))) (srcOf (m ((c : Thread nD τ).loc main_arg1))) (dstOf (m ((c : Thread nD τ).loc main_arg1))) (m ((c : Thread nD τ).loc main_arg5)) :=
  (s2_v59 (W6 m ρ c)).trans (by rw [w6_v38, w6_main_v14, w6_main_v3, w6_main_v6, w6_main_arg5])

end Cert.KernelIdeal.Net

end
-- ==== Proof.Region0.lean ====
/-
  The first product of the program, as one array. The program computes the product of the tall array
  X : [100000, 100] (the node features) with the weight matrix W : [100, 64] in ten steps: step t takes rows
  10000·t … 10000·t + 9999 of X (a block of 10000 rows), multiplies that block by the whole of W, and writes the
  result as rows 10000·t … 10000·t + 9999 of the output. Entry (p, q) of a block's product is the sum over k of
  block(p, k) · W(k, q), and block(p, k) = X(10000·t + p, k): so it is entry (10000·t + p, q) of X·W. The ten row
  blocks cover all 100000 rows, so the output array ends as X·W, entry by entry. Both sides add the same hundred
  products; the only step between them renames the summation index (the contracted axis's one coordinate is k), and
  a finite sum does not depend on how its index set is named. A change of float format is the identity on extended
  reals, and the zero the sum starts from is the real number zero.
-/
import proofs.«126492_j79388175499492_2_alg».proof.Proof.Gen.KernelIdeal.Frame
import proofs.«126492_j79388175499492_2_alg».proof.Proof.Spec
import Idealize.ShloMosaic.Lib.Pipeline.Value
import Idealize.ShloMosaic.Lib.ValueIdx
import Idealize.ShloMosaic.PureOps.Ideal.Laws

noncomputable section

namespace Cert.KernelIdeal.Region0

open Cert.KernelIdeal Idealize.ShloMosaic Idealize.ShloMosaic.TcCoe Idealize.SL.Sem
open Idealize.ShloMosaic.ValueIdx
open Idealize.ShloMosaic.Pipeline (Dat)

/-! ## One block's product, entry by entry -/

/-- In the block product, the left operand is read at the output's row: axis 0 of the left operand is not
    contracted. -/
theorem lhs_row (i : S10000x64.Idx) (k : (dot_S10000x100_S100x64_S10000x64_1_0_0_1_n_n).contr.Idx) :
    ((dot_S10000x100_S100x64_S10000x64_1_0_0_1_n_n).lhsIdx i k 0).val = (i 0).val := by
  unfold DotDims.lhsIdx
  rw [dif_neg (show ¬(0 : Fin S10000x100.rank) ∈ (dot_S10000x100_S100x64_S10000x64_1_0_0_1_n_n).lhsBatch by decide),
    dif_pos (show (0 : Fin S10000x100.rank) ∈ (dot_S10000x100_S100x64_S10000x64_1_0_0_1_n_n).lhsNonContracting by decide)]
  rfl

/-- In the block product, the right operand is read at the output's column: axis 1 of the right operand is not
    contracted. -/
theorem rhs_col (i : S10000x64.Idx) (k : (dot_S10000x100_S100x64_S10000x64_1_0_0_1_n_n).contr.Idx) :
    ((dot_S10000x100_S100x64_S10000x64_1_0_0_1_n_n).rhsIdx i k 1).val = (i 1).val := by
  unfold DotDims.rhsIdx
  rw [dif_neg (show ¬(1 : Fin S100x64.rank) ∈ (dot_S10000x100_S100x64_S10000x64_1_0_0_1_n_n).rhsBatch by decide),
    dif_pos (show (1 : Fin S100x64.rank) ∈ (dot_S10000x100_S100x64_S10000x64_1_0_0_1_n_n).rhsNonContracting by decide)]
  rfl

/-- What one step stores, at entry (p, q): the sum over the hundred contracted positions k of
    block(p, k) · weights(k, q). The rounding of both operands to the shorter format is the identity on extended
    reals, the accumulator the product is added into is zero, and the one contracted axis is indexed by k
    itself. -/
theorem block_product_entry (x0 : Vec Ideal S10000x100 .f32) (x1 : Vec Ideal S100x64 .f32) (p : Fin 10000) (q : Fin 64) :
    Gen.k0_pay1 x0 x1 (ix2 p q) = ∑ k : Fin 100, x0 (ix2 p k) * x1 (ix2 k q) := by
  unfold Gen.k0_pay1
  refine (Ideal.matmul_constant_zero_apply dot_S10000x100_S100x64_S10000x64_1_0_0_1_n_n none _ _ (ix2 p q)).trans ?_
  rw [← Equiv.sum_comp (contrEquiv1 dot_S10000x100_S100x64_S10000x64_1_0_0_1_n_n 100 rfl rfl).symm]
  refine Finset.sum_congr rfl fun k _ => ?_
  have hk := contrEquiv1_symm_val dot_S10000x100_S100x64_S10000x64_1_0_0_1_n_n 100 rfl rfl k
  have el : (dot_S10000x100_S100x64_S10000x64_1_0_0_1_n_n).lhsIdx (ix2 p q) ((contrEquiv1 dot_S10000x100_S100x64_S10000x64_1_0_0_1_n_n 100 rfl rfl).symm k) = ix2 p k :=
    funext fun a => Fin.ext (by
      match a with
      | ⟨0, _⟩ => exact lhs_row _ _
      | ⟨1, _⟩ => exact ((dot_S10000x100_S100x64_S10000x64_1_0_0_1_n_n).lhsIdx_val_of_single rfl _ _).trans hk)
  have er : (dot_S10000x100_S100x64_S10000x64_1_0_0_1_n_n).rhsIdx (ix2 p q) ((contrEquiv1 dot_S10000x100_S100x64_S10000x64_1_0_0_1_n_n 100 rfl rfl).symm k) = ix2 k q :=
    funext fun a => Fin.ext (by
      match a with
      | ⟨0, _⟩ => exact ((dot_S10000x100_S100x64_S10000x64_1_0_0_1_n_n).rhsIdx_val_of_single rfl _ _).trans hk
      | ⟨1, _⟩ => exact rhs_col _ _)
  rw [ValueIdx.truncf_apply, ValueIdx.truncf_apply, el, er]

/-! ## A block's product inside the whole product -/

/-- Entry (p, q) of the product of a row block with the weights is entry (b·10000 + p, q) of the product of the
    whole array with the weights, when the block holds rows b·10000 … b·10000 + 9999 of the array and the weight
    block is the weight matrix: the same hundred products are added. -/
theorem staged_is_product (X : S100000x100.Idx → EReal) (W : S100x64.Idx → EReal)
    (x0 : Vec Ideal S10000x100 .f32) (x1 : Vec Ideal S100x64 .f32)
    (e0 : S10000x100.Idx → S100000x100.Idx) (e1 : S100x64.Idx → S100x64.Idx)
    (hx0 : ∀ y, x0 y = X (e0 y)) (hx1 : ∀ y, x1 y = W (e1 y)) (b : Nat)
    (h00 : ∀ y, (e0 y 0).val = b * 10000 + (y 0).val) (h01 : ∀ y, (e0 y 1).val = (y 1).val)
    (h10 : ∀ y, (e1 y 0).val = (y 0).val) (h11 : ∀ y, (e1 y 1).val = (y 1).val)
    (j : S10000x64.Idx) (i : S100000x64.Idx)
    (hi0 : (i 0).val = b * 10000 + (j 0).val) (hi1 : (i 1).val = (j 1).val) :
    Gen.k0_pay1 x0 x1 j = Cert.Spec.mm X W i := by
  obtain ⟨p, q, rfl⟩ : ∃ (p : Fin 10000) (q : Fin 64), j = ix2 p q := ⟨j 0, j 1, eq_ix2 j⟩
  rw [block_product_entry]
  show _ = ∑ k : Fin 100, X (ix2 (i 0) k) * W (ix2 k (i 1))
  refine Finset.sum_congr rfl fun k _ => ?_
  have a0 : e0 (ix2 p k) = ix2 (i 0) k := funext fun a => Fin.ext (by
    match a with
    | ⟨0, _⟩ => show (e0 (ix2 p k) 0).val = (i 0).val; rw [h00, hi0]
    | ⟨1, _⟩ => show (e0 (ix2 p k) 1).val = k.val; rw [h01])
  have a1 : e1 (ix2 k q) = ix2 k (i 1) := funext fun a => Fin.ext (by
    match a with
    | ⟨0, _⟩ => show (e1 (ix2 k q) 0).val = k.val; rw [h10]
    | ⟨1, _⟩ => show (e1 (ix2 k q) 1).val = (i 1).val; rw [h11, hi1])
  rw [hx0, hx1, a0, a1]
  rfl

/-! ## From the ten blocks to the array -/

variable (V : (c : Dev nD) → (b : Ref sig .tc) → Buf (Elt Ideal) ((c : Thread nD τ).loc b))

/-- The body reads and writes its blocks whole: every access starts at offset zero on both axes. -/
theorem offsets_zero : (![0, 0] : Fin 2 → Nat) = fun _ => 0 := funext fun a => by fin_cases a <;> rfl

/-- Where the three blocks of step `t` sit, checked over the ten steps: the input row block and the output block are
    block number `t` along the rows and block 0 along the columns; the weight block is block (0, 0), the whole
    matrix. -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What step `t` writes back is rows 10000·t … 10000·t + 9999 of the product of the whole input array with the
    weights: the step's store fills its output block with the product of its two input blocks, the input row block
    holds those rows of the input array (an entry of a block sits in the array at block number × block extent + its
    coordinate in the block), and the weight block is the weight matrix. -/
theorem point_writes_product (c : Dev nD) (t : Fin cfg0.N) :
    (Gen.dat0 (F := Ideal) V c).flushed 2 t
      = ((cfg0.win 2).blk t).view.read (Elt Ideal) (Cert.Spec.mm (V c main_arg0) (V c main_arg2)) := by
  show (cfg0.win 2).cut (grid0.coords t) ((Gen.dat0 (F := Ideal) V c).after 2 t) = _
  rw [Gen.after0_2]
  unfold Gen.out0_2
  rw [View.canon_unit_zero offsets_zero]
  simp only [View.ld_unit_zero (S := S10000x100) offsets_zero, View.ld_unit_zero (S := S100x64) offsets_zero]
  obtain ⟨f00, f01, f10, f11, f20, f21⟩ := index_facts t
  funext j
  refine staged_is_product (V c main_arg0) (V c main_arg2) (Gen.iblk0 V c 0 t) (Gen.iblk0 V c 1 t)
    (((cfg0.win 0).blk t).view.emb) (((cfg0.win 1).blk t).view.emb) (fun _ => rfl) (fun _ => rfl) t.val
    (fun y => ?_) (fun y => ?_) (fun y => ?_) (fun y => ?_)
    ((cfg0.win 2).xinj (grid0.coords t) j) (((cfg0.win 2).blk t).view.emb j) ?_ ?_
  · show win0_0.index t (0 : Fin 2) * 10000 + 1 * (y 0).val = _; rw [f00]; omega
  · show win0_0.index t (1 : Fin 2) * 100 + 1 * (y 1).val = _; rw [f01]; omega
  · show win0_1.index t (0 : Fin 2) * 100 + 1 * (y 0).val = _; rw [f10]; omega
  · show win0_1.index t (1 : Fin 2) * 64 + 1 * (y 1).val = _; rw [f11]; omega
  · show win0_2.index t (0 : Fin 2) * 10000 + 1 * (j 0).val = t.val * 10000 + (j 0).val; rw [f20]; omega
  · show win0_2.index t (1 : Fin 2) * 64 + 1 * (j 1).val = (j 1).val; rw [f21]; omega

/-- An index of the output array lies in the block of step `t` exactly when, on each axis, its coordinate lies in
    the block's range: from the block's number times the block's extent, for the block's extent. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v15).slice (win0_2.rect t)).set ↔ _
  rw [View.set_slice_whole, Rect.mem_set_unit]
  exact Iff.rfl

/-- Every row of the output is written: row `r` lies in the block of step `r / 10000`, and every step writes
    its block back. -/
theorem rows_covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 10000 < grid0.N := by rw [Gen.N_0]; omega
  obtain ⟨t, ht⟩ : ∃ t : Fin cfg0.N, t.val = (i 0).val / 10000 := ⟨⟨(i 0).val / 10000, hlt⟩, rfl⟩
  obtain ⟨-, -, -, -, f20, f21⟩ := index_facts t
  refine ⟨t, Gen.flush0_2 t, ?_⟩
  rw [mem_block]
  intro a
  match a with
  | ⟨0, _⟩ =>
    show win0_2.index t (0 : Fin 2) * 10000 ≤ (i 0).val ∧ (i 0).val < win0_2.index t (0 : Fin 2) * 10000 + 10000
    rw [f20, ht]; omega
  | ⟨1, _⟩ =>
    show win0_2.index t (1 : Fin 2) * 64 ≤ (i 1).val ∧ (i 1).val < win0_2.index t (1 : Fin 2) * 64 + 64
    rw [f21]; omega

/-- The output array of the first product after its ten steps: every step writes its row block of the product of the
    whole input array with the weights, and the ten blocks cover the array, so the array is that product. -/
theorem arr (c : Dev nD) :
    (Gen.dat0 (F := Ideal) V c).arrAt 2 cfg0.N = Cert.Spec.mm (V c main_arg0) (V c main_arg2) :=
  (Gen.dat0 (F := Ideal) V c).arrAt_eq_of_cover 2 (Cert.Spec.mm (V c main_arg0) (V c main_arg2))
    (fun t _ => point_writes_product V c t) rows_covered

end Cert.KernelIdeal.Region0

end
-- ==== Proof.Region1.lean ====
/-
  The second product of the program, as one array. The program computes the product of the tall array
  X : [100000, 64] (the hidden features the program has computed before this product) with the weight matrix W : [64, 32] in ten steps: step t takes rows
  10000·t … 10000·t + 9999 of X (a block of 10000 rows), multiplies that block by the whole of W, and writes the
  result as rows 10000·t … 10000·t + 9999 of the output. Entry (p, q) of a block's product is the sum over k of
  block(p, k) · W(k, q), and block(p, k) = X(10000·t + p, k): so it is entry (10000·t + p, q) of X·W. The ten row
  blocks cover all 100000 rows, so the output array ends as X·W, entry by entry. Both sides add the same sixty-four
  products; the only step between them renames the summation index (the contracted axis's one coordinate is k), and
  a finite sum does not depend on how its index set is named. A change of float format is the identity on extended
  reals, and the zero the sum starts from is the real number zero.
-/
import proofs.«126492_j79388175499492_2_alg».proof.Proof.Gen.KernelIdeal.Frame
import proofs.«126492_j79388175499492_2_alg».proof.Proof.Spec
import Idealize.ShloMosaic.Lib.Pipeline.Value
import Idealize.ShloMosaic.Lib.ValueIdx
import Idealize.ShloMosaic.PureOps.Ideal.Laws

noncomputable section

namespace Cert.KernelIdeal.Region1

open Cert.KernelIdeal Idealize.ShloMosaic Idealize.ShloMosaic.TcCoe Idealize.SL.Sem
open Idealize.ShloMosaic.ValueIdx
open Idealize.ShloMosaic.Pipeline (Dat)

/-! ## One block's product, entry by entry -/

/-- In the block product, the left operand is read at the output's row: axis 0 of the left operand is not
    contracted. -/
theorem lhs_row (i : S10000x32.Idx) (k : (dot_S10000x64_S64x32_S10000x32_1_0_0_1_n_n).contr.Idx) :
    ((dot_S10000x64_S64x32_S10000x32_1_0_0_1_n_n).lhsIdx i k 0).val = (i 0).val := by
  unfold DotDims.lhsIdx
  rw [dif_neg (show ¬(0 : Fin S10000x64.rank) ∈ (dot_S10000x64_S64x32_S10000x32_1_0_0_1_n_n).lhsBatch by decide),
    dif_pos (show (0 : Fin S10000x64.rank) ∈ (dot_S10000x64_S64x32_S10000x32_1_0_0_1_n_n).lhsNonContracting by decide)]
  rfl

/-- In the block product, the right operand is read at the output's column: axis 1 of the right operand is not
    contracted. -/
theorem rhs_col (i : S10000x32.Idx) (k : (dot_S10000x64_S64x32_S10000x32_1_0_0_1_n_n).contr.Idx) :
    ((dot_S10000x64_S64x32_S10000x32_1_0_0_1_n_n).rhsIdx i k 1).val = (i 1).val := by
  unfold DotDims.rhsIdx
  rw [dif_neg (show ¬(1 : Fin S64x32.rank) ∈ (dot_S10000x64_S64x32_S10000x32_1_0_0_1_n_n).rhsBatch by decide),
    dif_pos (show (1 : Fin S64x32.rank) ∈ (dot_S10000x64_S64x32_S10000x32_1_0_0_1_n_n).rhsNonContracting by decide)]
  rfl

/-- What one step stores, at entry (p, q): the sum over the sixty-four contracted positions k of
    block(p, k) · weights(k, q). The rounding of both operands to the shorter format is the identity on extended
    reals, the cast of the block's shape to itself changes nothing, the accumulator the product is added into is zero, and the one contracted axis is indexed by k
    itself. -/
theorem block_product_entry (x0 : Vec Ideal S10000x64 .f32) (x1 : Vec Ideal S64x32 .f32) (p : Fin 10000) (q : Fin 32) :
    Gen.k1_pay1 x0 x1 (ix2 p q) = ∑ k : Fin 64, x0 (ix2 p k) * x1 (ix2 k q) := by
  unfold Gen.k1_pay1
  refine (Ideal.matmul_constant_zero_apply dot_S10000x64_S64x32_S10000x32_1_0_0_1_n_n none _ _ (ix2 p q)).trans ?_
  rw [← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : (dot_S10000x64_S64x32_S10000x32_1_0_0_1_n_n).lhsIdx (ix2 p q) ((contrEquiv1 dot_S10000x64_S64x32_S10000x32_1_0_0_1_n_n 64 rfl rfl).symm k) = ix2 p k :=
    funext fun a => Fin.ext (by
      match a with
      | ⟨0, _⟩ => exact lhs_row _ _
      | ⟨1, _⟩ => exact ((dot_S10000x64_S64x32_S10000x32_1_0_0_1_n_n).lhsIdx_val_of_single rfl _ _).trans hk)
  have er : (dot_S10000x64_S64x32_S10000x32_1_0_0_1_n_n).rhsIdx (ix2 p q) ((contrEquiv1 dot_S10000x64_S64x32_S10000x32_1_0_0_1_n_n 64 rfl rfl).symm k) = ix2 k q :=
    funext fun a => Fin.ext (by
      match a with
      | ⟨0, _⟩ => exact ((dot_S10000x64_S64x32_S10000x32_1_0_0_1_n_n).rhsIdx_val_of_single rfl _ _).trans hk
      | ⟨1, _⟩ => exact rhs_col _ _)
  rw [ValueIdx.truncf_apply, ValueIdx.truncf_apply, shapeCast_self, el, er]

/-! ## A block's product inside the whole product -/

/-- Entry (p, q) of the product of a row block with the weights is entry (b·10000 + p, q) of the product of the
    whole array with the weights, when the block holds rows b·10000 … b·10000 + 9999 of the array and the weight
    block is the weight matrix: the same sixty-four products are added. -/
theorem staged_is_product (X : S100000x64.Idx → EReal) (W : S64x32.Idx → EReal)
    (x0 : Vec Ideal S10000x64 .f32) (x1 : Vec Ideal S64x32 .f32)
    (e0 : S10000x64.Idx → S100000x64.Idx) (e1 : S64x32.Idx → S64x32.Idx)
    (hx0 : ∀ y, x0 y = X (e0 y)) (hx1 : ∀ y, x1 y = W (e1 y)) (b : Nat)
    (h00 : ∀ y, (e0 y 0).val = b * 10000 + (y 0).val) (h01 : ∀ y, (e0 y 1).val = (y 1).val)
    (h10 : ∀ y, (e1 y 0).val = (y 0).val) (h11 : ∀ y, (e1 y 1).val = (y 1).val)
    (j : S10000x32.Idx) (i : S100000x32.Idx)
    (hi0 : (i 0).val = b * 10000 + (j 0).val) (hi1 : (i 1).val = (j 1).val) :
    Gen.k1_pay1 x0 x1 j = Cert.Spec.mm X W i := by
  obtain ⟨p, q, rfl⟩ : ∃ (p : Fin 10000) (q : Fin 32), j = ix2 p q := ⟨j 0, j 1, eq_ix2 j⟩
  rw [block_product_entry]
  show _ = ∑ k : Fin 64, X (ix2 (i 0) k) * W (ix2 k (i 1))
  refine Finset.sum_congr rfl fun k _ => ?_
  have a0 : e0 (ix2 p k) = ix2 (i 0) k := funext fun a => Fin.ext (by
    match a with
    | ⟨0, _⟩ => show (e0 (ix2 p k) 0).val = (i 0).val; rw [h00, hi0]
    | ⟨1, _⟩ => show (e0 (ix2 p k) 1).val = k.val; rw [h01])
  have a1 : e1 (ix2 k q) = ix2 k (i 1) := funext fun a => Fin.ext (by
    match a with
    | ⟨0, _⟩ => show (e1 (ix2 k q) 0).val = k.val; rw [h10]
    | ⟨1, _⟩ => show (e1 (ix2 k q) 1).val = (i 1).val; rw [h11, hi1])
  rw [hx0, hx1, a0, a1]
  rfl

/-! ## From the ten blocks to the array -/

variable (V : (c : Dev nD) → (b : Ref sig .tc) → Buf (Elt Ideal) ((c : Thread nD τ).loc b))

/-- The body reads and writes its blocks whole: every access starts at offset zero on both axes. -/
theorem offsets_zero : (![0, 0] : Fin 2 → Nat) = fun _ => 0 := funext fun a => by fin_cases a <;> rfl

/-- Where the three blocks of step `t` sit, checked over the ten steps: the input row block and the output block are
    block number `t` along the rows and block 0 along the columns; the weight block is block (0, 0), the whole
    matrix. -/
theorem index_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What step `t` writes back is rows 10000·t … 10000·t + 9999 of the product of the whole input array with the
    weights: the step's store fills its output block with the product of its two input blocks, the input row block
    holds those rows of the input array (an entry of a block sits in the array at block number × block extent + its
    coordinate in the block), and the weight block is the weight matrix. -/
theorem point_writes_product (c : Dev nD) (t : Fin cfg1.N) :
    (Gen.dat1 (F := Ideal) V c).flushed 2 t
      = ((cfg1.win 2).blk t).view.read (Elt Ideal) (Cert.Spec.mm (V c main_v37) (V c main_arg4)) := by
  show (cfg1.win 2).cut (grid1.coords t) ((Gen.dat1 (F := Ideal) V c).after 2 t) = _
  rw [Gen.after1_2]
  unfold Gen.out1_2
  rw [View.canon_unit_zero offsets_zero]
  simp only [View.ld_unit_zero (S := S10000x64) offsets_zero, View.ld_unit_zero (S := S64x32) offsets_zero]
  obtain ⟨f00, f01, f10, f11, f20, f21⟩ := index_facts t
  funext j
  refine staged_is_product (V c main_v37) (V c main_arg4) (Gen.iblk1 V c 0 t) (Gen.iblk1 V c 1 t)
    (((cfg1.win 0).blk t).view.emb) (((cfg1.win 1).blk t).view.emb) (fun _ => rfl) (fun _ => rfl) t.val
    (fun y => ?_) (fun y => ?_) (fun y => ?_) (fun y => ?_)
    ((cfg1.win 2).xinj (grid1.coords t) j) (((cfg1.win 2).blk t).view.emb j) ?_ ?_
  · show win1_0.index t (0 : Fin 2) * 10000 + 1 * (y 0).val = _; rw [f00]; omega
  · show win1_0.index t (1 : Fin 2) * 64 + 1 * (y 1).val = _; rw [f01]; omega
  · show win1_1.index t (0 : Fin 2) * 64 + 1 * (y 0).val = _; rw [f10]; omega
  · show win1_1.index t (1 : Fin 2) * 32 + 1 * (y 1).val = _; rw [f11]; omega
  · show win1_2.index t (0 : Fin 2) * 10000 + 1 * (j 0).val = t.val * 10000 + (j 0).val; rw [f20]; omega
  · show win1_2.index t (1 : Fin 2) * 32 + 1 * (j 1).val = (j 1).val; rw [f21]; omega

/-- An index of the output array lies in the block of step `t` exactly when, on each axis, its coordinate lies in
    the block's range: from the block's number times the block's extent, for the block's extent. -/
theorem mem_block (t : Fin cfg1.N) (i : S100000x32.Idx) :
    i ∈ ((cfg1.win 2).blk t).view.set ↔ ∀ a : Fin 2, win1_2.index t a * S10000x32.size a ≤ (i a).val
      ∧ (i a).val < win1_2.index t a * S10000x32.size a + S10000x32.size a := by
  show i ∈ ((View.whole main_v38).slice (win1_2.rect t)).set ↔ _
  rw [View.set_slice_whole, Rect.mem_set_unit]
  exact Iff.rfl

/-- Every row of the output is written: row `r` lies in the block of step `r / 10000`, and every step writes
    its block back. -/
theorem rows_covered (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hlt : (i 0).val / 10000 < grid1.N := by rw [Gen.N_1]; omega
  obtain ⟨t, ht⟩ : ∃ t : Fin cfg1.N, t.val = (i 0).val / 10000 := ⟨⟨(i 0).val / 10000, hlt⟩, rfl⟩
  obtain ⟨-, -, -, -, f20, f21⟩ := index_facts t
  refine ⟨t, Gen.flush1_2 t, ?_⟩
  rw [mem_block]
  intro a
  match a with
  | ⟨0, _⟩ =>
    show win1_2.index t (0 : Fin 2) * 10000 ≤ (i 0).val ∧ (i 0).val < win1_2.index t (0 : Fin 2) * 10000 + 10000
    rw [f20, ht]; omega
  | ⟨1, _⟩ =>
    show win1_2.index t (1 : Fin 2) * 32 ≤ (i 1).val ∧ (i 1).val < win1_2.index t (1 : Fin 2) * 32 + 32
    rw [f21]; omega

/-- The output array of the second product after its ten steps: every step writes its row block of the product of the
    whole input array with the weights, and the ten blocks cover the array, so the array is that product. -/
theorem arr (c : Dev nD) :
    (Gen.dat1 (F := Ideal) V c).arrAt 2 cfg1.N = Cert.Spec.mm (V c main_v37) (V c main_arg4) :=
  (Gen.dat1 (F := Ideal) V c).arrAt_eq_of_cover 2 (Cert.Spec.mm (V c main_v37) (V c main_arg4))
    (fun t _ => point_writes_product V c t) rows_covered

end Cert.KernelIdeal.Region1

end
-- ==== Proof.LibSegment.lean ====
/-
  General lemmas for a graph layer with a per-node scale, at the ideal instance (floats are extended reals, every
  operation exact).  A row gather and a vector gather read at an index (the start index read signed and clamped); the
  row scatter's landing rule (the start index read signed, not clamped, dropped outside); a nonnegative real factor
  moves inside a finite sum of extended reals; and with these, the layer theorem: scaling the gathered rows before
  the scatter-add and the sums after it by the per-node scale is the same as scaling every edge's row by the product
  of the scales of its two ends.  Last, the scale itself: an inverse square root selected where the degree is
  positive, zero elsewhere, is a nonnegative real.
-/
import Idealize.ShloMosaic.Lib.ValueIdx
import Idealize.ShloMosaic.Lib.Pipeline.Value
import Idealize.ShloMosaic.PureOps.Ideal
import Idealize.ShloMosaic.PureOps.Ideal.Laws
import Mathlib.Data.EReal.Operations

noncomputable section

open scoped BigOperators

namespace Cert.LibSegment

open Idealize.ShloMosaic Idealize.ShloMosaic.ValueIdx

/-! ## The three dimension-number records -/

/-- Row gather: operand `[N, C]`, start indices `[E, 1]`, result `[E, C]`; result row `e` is the operand's row at the
    start index `idx[e, 0]`.  The conditions `wf` are decided on a program's literal shapes. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Vector gather: operand `[N]`, start indices `[E, 1]`, result `[E]`; result element `e` is the operand's element at
    the start index `idx[e, 0]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, C]`, scatter indices `[E, 1]`, updates `[E, C]`; update row `e` goes to the operand's row
    `idx[e, 0]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The gathers read at an index -/

section Gather
variable {α : Type}

/-- THE ROW GATHER READ AT `(e, c)`: the operand at row `idx[e, 0]` (read signed, clamped into `[0, N − 1]`) and
    column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e 0)).toInt.toNat (N - 1), by omega⟩ c) := by
  unfold Host.gather
  congr 1
  funext a
  refine Fin.ext ?_
  show (rowGather N E C wf).start (ix2 e c) idx a + (rowGather N E C wf).batchCoord (ix2 e c) a
      + (rowGather N E C wf).offCoord (ix2 e c) a = _
  rw [GatherDims.batchCoord_eq_zero _ _ _ List.not_mem_nil]
  match a with
  | ⟨0, _⟩ =>
    -- the row axis: collapsed, so no offset; the start index, clamped
    rw [GatherDims.offCoord_eq_zero _ _ _
      (fun h => ((GatherDims.mem_sKept _ _).mp h).1 (List.mem_singleton.mpr rfl))]
    simp only [Nat.add_zero]
    unfold GatherDims.start
    rw [dif_pos (show (⟨0, Nat.zero_lt_two⟩ : Fin 2) ∈ (rowGather N E C wf).startIndexMap from
      List.mem_singleton.mpr rfl)]
    have hsi : (rowGather N E C wf).siIdx (ix2 e c)
        ⟨List.idxOf (⟨0, Nat.zero_lt_two⟩ : Fin 2) (rowGather N E C wf).startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: not in the start index map, so start 0; the offset is the result's column
    unfold GatherDims.start
    rw [dif_neg (by simp)]
    unfold GatherDims.offCoord
    have hk : (⟨1, Nat.one_lt_two⟩ : Fin 2) ∈ (rowGather N E C wf).sKept := by
      rw [GatherDims.mem_sKept]; simp
    rw [dif_pos hk, Nat.add_zero, Nat.zero_add]
    rfl

/-- THE VECTOR GATHER READ AT `e`: the operand at `idx[e, 0]`, read signed and clamped into `[0, N − 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Where an update row lands -/

section Scatter

/-- The row scatter's start on the row axis for update index `(e, c)`: the scatter index `idx[e, 0]`, read signed. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx ⟨0, Nat.zero_lt_two⟩ = (idx (ix2 e 0)).toInt := by
  unfold ScatterDims.start
  rw [dif_pos (show (⟨0, Nat.zero_lt_two⟩ : Fin 2) ∈ (rowScatter N E C wf).scatterDimsToOperandDims from
    List.mem_singleton.mpr rfl)]
  have hsi : (rowScatter N E C wf).siIdx (ix2 e c)
      ⟨List.idxOf (⟨0, Nat.zero_lt_two⟩ : Fin 2) (rowScatter N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … its window coordinate on the row axis is `0` (the axis is an inserted one) … -/
theorem rowScatter_window0 {N E C : Nat}
    (wf : ScatterDims.WF ⟨2, ![N, C]⟩ ⟨2, ![E, 1]⟩ ⟨2, ![E, C]⟩ [1] [0] [0] 1) (e : Fin E) (c : Fin C) :
    (rowScatter N E C wf).window (ix2 e c) ⟨0, Nat.zero_lt_two⟩ = 0 := by
  unfold ScatterDims.window
  rw [dif_neg (by simp [ScatterDims.sKept, Shape.kept])]

/-- … its start on the column axis is `0` (the scatter index does not name that axis) … -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx ⟨1, Nat.one_lt_two⟩ = 0 := by
  unfold ScatterDims.start
  rw [dif_neg (by simp)]

/-- … and its window coordinate on the column axis is the update's column. -/
theorem rowScatter_window1 {N E C : Nat}
    (wf : ScatterDims.WF ⟨2, ![N, C]⟩ ⟨2, ![E, 1]⟩ ⟨2, ![E, C]⟩ [1] [0] [0] 1) (e : Fin E) (c : Fin C) :
    (rowScatter N E C wf).window (ix2 e c) ⟨1, Nat.one_lt_two⟩ = c.val := by
  unfold ScatterDims.window
  have hk : (⟨1, Nat.one_lt_two⟩ : Fin 2) ∈ (rowScatter N E C wf).sKept := by
    simp [ScatterDims.sKept, Shape.kept]
  rw [dif_pos hk]
  rfl

/-- WHERE AN UPDATE LANDS: update element `(e, c)` of the row scatter lands on operand element `(v, c')` exactly when
    the scatter index `idx[e, 0]`, read signed and not clamped, is `v` and the columns agree. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c c' : Fin C) (v : Fin N) :
    (rowScatter N E C wf).resultIdx? (ix2 e c) idx = some (ix2 v c')
      ↔ (idx (ix2 e 0)).toInt = (v.val : Int) ∧ c = c' := by
  have hs0 := rowScatter_start0 wf idx e c
  have hw0 := rowScatter_window0 wf e c
  have hs1 := rowScatter_start1 wf idx e c
  have hw1 := rowScatter_window1 wf e c
  unfold ScatterDims.resultIdx?
  constructor
  · intro h
    split at h
    · rename_i hin
      have hf := Option.some.inj h
      have h0 := congrArg (fun f => (f ⟨0, Nat.zero_lt_two⟩).val) hf
      have h1 := congrArg (fun f => (f ⟨1, Nat.one_lt_two⟩).val) hf
      have hin0 := (hin ⟨0, Nat.zero_lt_two⟩).1
      simp only [hs0, hw0, hs1, hw1] at h0 h1 hin0
      change ((idx (ix2 e 0)).toInt + ((0 : Nat) : Int)).toNat = v.val at h0
      change (0 + (c.val : Int)).toNat = c'.val at h1
      refine ⟨by omega, Fin.ext (by omega)⟩
    · exact absurd h (by simp)
  · rintro ⟨hv, rfl⟩
    have hin : ∀ a : Fin 2, 0 ≤ (rowScatter N E C wf).start (ix2 e c) idx a + (rowScatter N E C wf).window (ix2 e c) a ∧
        (rowScatter N E C wf).start (ix2 e c) idx a + (rowScatter N E C wf).window (ix2 e c) a
          < ((⟨2, ![N, C]⟩ : Shape).size a : Nat) := by
      intro a
      match a with
      | ⟨0, _⟩ =>
        rw [hs0, hw0, hv]
        have := v.isLt
        change 0 ≤ (v.val : Int) + ((0 : Nat) : Int) ∧ (v.val : Int) + ((0 : Nat) : Int) < (N : Int)
        omega
      | ⟨1, _⟩ =>
        rw [hs1, hw1]
        have := c.isLt
        change 0 ≤ (0 : Int) + (c.val : Int) ∧ (0 : Int) + (c.val : Int) < (C : Int)
        omega
    rw [dif_pos hin]
    congr 1
    funext a
    refine Fin.ext ?_
    match a with
    | ⟨0, _⟩ =>
      change ((rowScatter N E C wf).start (ix2 e c) idx ⟨0, Nat.zero_lt_two⟩
        + ((rowScatter N E C wf).window (ix2 e c) ⟨0, Nat.zero_lt_two⟩ : Nat)).toNat = v.val
      rw [hs0, hw0, hv]; omega
    | ⟨1, _⟩ =>
      change ((rowScatter N E C wf).start (ix2 e c) idx ⟨1, Nat.one_lt_two⟩
        + ((rowScatter N E C wf).window (ix2 e c) ⟨1, Nat.one_lt_two⟩ : Nat)).toNat = c.val
      rw [hs1, hw1]; omega

end Scatter

/-! ## A nonnegative real factor and a finite sum of extended reals -/

section Sum

/-- A NONNEGATIVE REAL FACTOR MOVES INSIDE A FINITE SUM of extended reals: `r · Σ f = Σ r · f` for `0 ≤ r` real. No
    term need be finite: multiplication by a nonnegative finite factor distributes over every sum of two extended
    reals. -/
theorem mul_sum_of_nonneg {ι : Type*} (r : ℝ) (hr : 0 ≤ r) (s : Finset ι) (f : ι → EReal) :
    (r : EReal) * ∑ j ∈ s, f j = ∑ j ∈ s, (r : EReal) * f j := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

end Sum

/-! ## Two broadcasts read at an index -/

section Broadcast
variable {α : Type}

/-- A vector `[n]` broadcast to a column `[n, 1]`, read at `(a, 0)`: the vector's element `a`. -/
theorem colBroadcast_apply {n : Nat}
    (h : (⟨1, ![n]⟩ : Shape).BroadcastsInDim ⟨2, ![n, 1]⟩ (![0] : Fin 1 → Fin 2))
    (x : (⟨1, ![n]⟩ : Shape).Idx → α) (a : Fin n) (z : Fin 1) :
    broadcastInDim ⟨2, ![n, 1]⟩ ![0] h x (ix2 a z) = x (ix1 a) := by
  refine broadcastInDim_apply _ h x _ _ ?_
  intro b
  obtain rfl : b = 0 := Subsingleton.elim _ _
  show a.val = if n = 1 then 0 else a.val
  have := a.isLt
  split <;> omega

/-- A column `[n, 1]` broadcast along rows to `[n, m]`, read at `(a, b)`: the column's element `(a, 0)`. -/
theorem rowBroadcast_apply {n m : Nat}
    (h : (⟨2, ![n, 1]⟩ : Shape).BroadcastsInDim ⟨2, ![n, m]⟩ (![0, 1] : Fin 2 → Fin 2))
    (x : (⟨2, ![n, 1]⟩ : Shape).Idx → α) (a : Fin n) (b : Fin m) :
    broadcastInDim ⟨2, ![n, m]⟩ ![0, 1] h x (ix2 a b) = x (ix2 a 0) := by
  refine broadcastInDim_apply _ h x _ _ ?_
  intro d
  match d with
  | ⟨0, _⟩ =>
    show a.val = if n = 1 then 0 else a.val
    have := a.isLt
    split <;> omega
  | ⟨1, _⟩ => rfl

/-- The two together: a vector `[n]` broadcast to `[n, m]` through a column, read at `(a, b)`, is its element `a`. -/
theorem vecBroadcast_apply {n m : Nat}
    (h1 : (⟨1, ![n]⟩ : Shape).BroadcastsInDim ⟨2, ![n, 1]⟩ (![0] : Fin 1 → Fin 2))
    (h2 : (⟨2, ![n, 1]⟩ : Shape).BroadcastsInDim ⟨2, ![n, m]⟩ (![0, 1] : Fin 2 → Fin 2))
    (x : (⟨1, ![n]⟩ : Shape).Idx → α) (a : Fin n) (b : Fin m) :
    broadcastInDim ⟨2, ![n, m]⟩ ![0, 1] h2 (broadcastInDim ⟨2, ![n, 1]⟩ ![0] h1 x) (ix2 a b) = x (ix1 a) := by
  rw [rowBroadcast_apply, colBroadcast_apply]

end Broadcast

/-! ## Normalizing an index -/

section Normalize

/-- NORMALIZING AN INDEX, `x < 0 ? x + n : x` with the comparison signed, leaves a nonnegative one alone. -/
theorem normalize_of_nonneg {s : Shape} (x zeros n : IVec s 32) (hz : ∀ i, zeros i = 0#32) (i : s.Idx)
    (h : 0 ≤ (x i).toInt) : select (cmpi .slt x zeros) (addi x n) x i = x i := by
  show Scalar.select (IntOp.cmpi .slt (x i) (zeros i)) (addi x n i) (x i) = x i
  have hc : IntOp.cmpi .slt (x i) (zeros i) = 0#1 := by
    have hlt : (x i).slt 0#32 = false := by
      rw [BitVec.slt, decide_eq_false_iff_not, BitVec.toInt_zero]; exact not_lt.mpr h
    rw [hz]; unfold IntOp.cmpi; simp only [hlt]; rfl
  rw [hc, select_zero]

/-- The same with the zero and the addend the broadcast integer scalars `0` and `k`, as a program writes
    `v < 0 ? v + k : v` over an index vector: a nonnegative index is left alone, whatever `k` is. -/
theorem normalize_const_of_nonneg {E : Nat} (v : IVec ⟨1, ![E]⟩ 32) (k : BitVec 32)
    (h0 : (⟨0, ![]⟩ : Shape).BroadcastsInDim ⟨1, ![E]⟩ (![] : Fin 0 → Fin 1))
    (e : (⟨1, ![E]⟩ : Shape).Idx) (h : 0 ≤ (v e).toInt) :
    select (cmpi .slt v (broadcastInDim ⟨1, ![E]⟩ ![] h0 (constantI ⟨0, ![]⟩ 32 0#32)))
      (addi v (broadcastInDim ⟨1, ![E]⟩ ![] h0 (constantI ⟨0, ![]⟩ 32 k))) v e = v e :=
  normalize_of_nonneg v _ _ (fun _ => rfl) e h

end Normalize

/-! ## The layer: a per-node scale before and after the scatter-add, or per edge -/

section Layer

/-- THE LAYER THEOREM.  `H : [N, C]` node features, `D : [N]` a per-node scale that is everywhere a nonnegative real,
    `src'`, `dst`, `dst'` : `[E]` edge ends, `dst'` agreeing with `dst` wherever `dst` is nonnegative.  Scaling the rows
    of `H` by `D`, gathering the source rows, scatter-adding them at `dst` onto `Z` and scaling the result's rows by
    `D` again, is scatter-adding, onto the scaled `Z`, the gathered rows of `H` each scaled by the product of `D` at the
    edge's two ends (both read through the clamping gather, the second at `dst'`).  For an update that lands on row
    `v` the scatter index is `v` itself, `0 ≤ v < N`, so `dst'` is `dst` there and the clamp leaves it alone: the second
    factor is `D v`, the common nonnegative real factor, which moves inside the sum. -/
theorem layer_eq {N E C : Nat} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H Z : (⟨2, ![N, C]⟩ : Shape).Idx → EReal) (D : (⟨1, ![N]⟩ : Shape).Idx → EReal)
    (hD : ∀ i, ∃ r : ℝ, 0 ≤ r ∧ D i = (r : EReal))
    (src' dst dst' : IVec ⟨1, ![E]⟩ 32)
    (hdst : ∀ e, 0 ≤ (dst e).toInt → dst' e = dst e)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (hi hi' : (⟨1, ![E]⟩ : Shape).BroadcastsInDim ⟨2, ![E, 1]⟩ (![0] : Fin 1 → Fin 2))
    (he2 : (⟨2, ![E, 1]⟩ : Shape).BroadcastsInDim ⟨2, ![E, C]⟩ (![0, 1] : Fin 2 → Fin 2)) :
    mulf (F := Ideal) (φ := .f32)
        (broadcastInDim ⟨2, ![N, C]⟩ ![0, 1] h2 (broadcastInDim ⟨2, ![N, 1]⟩ ![0] h1 D))
        (Host.scatterAdd (F := Ideal) (φ := .f32) (rowScatter N E C wfs) Z
          (broadcastInDim ⟨2, ![E, 1]⟩ ![0] hi dst)
          (Host.gather (rowGather N E C wfg)
            (mulf (F := Ideal) (φ := .f32) H
              (broadcastInDim ⟨2, ![N, C]⟩ ![0, 1] h2 (broadcastInDim ⟨2, ![N, 1]⟩ ![0] h1 D)))
            (broadcastInDim ⟨2, ![E, 1]⟩ ![0] hi src')))
      = Host.scatterAdd (F := Ideal) (φ := .f32) (rowScatter N E C wfs)
          (mulf (F := Ideal) (φ := .f32)
            (broadcastInDim ⟨2, ![N, C]⟩ ![0, 1] h2 (broadcastInDim ⟨2, ![N, 1]⟩ ![0] h1 D)) Z)
          (broadcastInDim ⟨2, ![E, 1]⟩ ![0] hi dst)
          (mulf (F := Ideal) (φ := .f32)
            (Host.gather (rowGather N E C wfg) H (broadcastInDim ⟨2, ![E, 1]⟩ ![0] hi src'))
            (broadcastInDim ⟨2, ![E, C]⟩ ![0, 1] he2 (broadcastInDim ⟨2, ![E, 1]⟩ ![0] hi'
              (mulf (F := Ideal) (φ := .f32)
                (Host.gather (vecGather N E wfv) D (broadcastInDim ⟨2, ![E, 1]⟩ ![0] hi src'))
                (Host.gather (vecGather N E wfv) D (broadcastInDim ⟨2, ![E, 1]⟩ ![0] hi dst')))))) := by
  funext i
  obtain ⟨v, c, rfl⟩ : ∃ (v : Fin N) (c : Fin C), i = ix2 v c := ⟨i 0, i 1, eq_ix2 i⟩
  obtain ⟨r, hr, hDv⟩ := hD (ix1 v)
  simp only [mulf_apply, Host.scatterAdd, Ideal.hostScatterAdd_def, Ideal.hostScatterAdd]
  rw [vecBroadcast_apply h1 h2 D v c, hDv, EReal.left_distrib_of_nonneg_of_ne_top (EReal.coe_nonneg.mpr hr) (EReal.coe_ne_top r),
    mul_sum_of_nonneg r hr]
  congr 1
  refine Finset.sum_congr rfl ?_
  intro j hj
  obtain ⟨e, c', rfl⟩ : ∃ (e : Fin E) (c' : Fin C), j = ix2 e c' := ⟨j 0, j 1, eq_ix2 j⟩
  obtain ⟨hl, rfl⟩ := (rowScatter_lands wfs _ e c' c v).mp (Finset.mem_filter.mp hj).2
  -- the update lands on row `v`: the scatter index is `v`, so `dst'` is `dst` here and the clamp leaves it alone
  rw [colBroadcast_apply hi dst e 0] at hl
  have hd' : dst' (ix1 e) = dst (ix1 e) := hdst _ (by rw [hl]; exact Int.natCast_nonneg _)
  have hb : broadcastInDim ⟨2, ![E, 1]⟩ ![0] hi dst' (ix2 e 0) = dst (ix1 e) :=
    (colBroadcast_apply hi dst' e 0).trans hd'
  have hg' : ∀ h, (⟨min (broadcastInDim ⟨2, ![E, 1]⟩ ![0] hi dst' (ix2 e 0)).toInt.toNat (N - 1), h⟩ : Fin N) = v :=
    fun h => Fin.ext (by
      show min (broadcastInDim ⟨2, ![E, 1]⟩ ![0] hi dst' (ix2 e 0)).toInt.toNat (N - 1) = v.val
      rw [hb, hl]; have := v.isLt; omega)
  rw [rowGather_apply hN wfg _ _ e c', rowGather_apply hN wfg H _ e c', vecBroadcast_apply hi' he2 _ e c',
    mulf_apply, mulf_apply, vecGather_apply hN wfv D _ e, vecGather_apply hN wfv D _ e,
    vecBroadcast_apply h1 h2 D _ c', hg', hDv]
  -- `r · (h · d) = h · (d · r)`
  rw [mul_left_comm, mul_comm (r : EReal)]

/-- The layer theorem with the scaled features narrowed to `bf16` before the gather and the gathered rows widened
    back to `f32` after it: on extended reals both format changes are the identity, so this is `layer_eq`. -/
theorem layer_eq_conv {N E C : Nat} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H Z : (⟨2, ![N, C]⟩ : Shape).Idx → EReal) (D : (⟨1, ![N]⟩ : Shape).Idx → EReal)
    (hD : ∀ i, ∃ r : ℝ, 0 ≤ r ∧ D i = (r : EReal))
    (src' dst dst' : IVec ⟨1, ![E]⟩ 32)
    (hdst : ∀ e, 0 ≤ (dst e).toInt → dst' e = dst e)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (hi hi' : (⟨1, ![E]⟩ : Shape).BroadcastsInDim ⟨2, ![E, 1]⟩ (![0] : Fin 1 → Fin 2))
    (he2 : (⟨2, ![E, 1]⟩ : Shape).BroadcastsInDim ⟨2, ![E, C]⟩ (![0, 1] : Fin 2 → Fin 2))
    (hlt : FTy.bf16.bits < FTy.f32.bits) (hlt' : FTy.bf16.bits < FTy.f32.bits) :
    mulf (F := Ideal) (φ := .f32)
        (broadcastInDim ⟨2, ![N, C]⟩ ![0, 1] h2 (broadcastInDim ⟨2, ![N, 1]⟩ ![0] h1 D))
        (Host.scatterAdd (F := Ideal) (φ := .f32) (rowScatter N E C wfs) Z
          (broadcastInDim ⟨2, ![E, 1]⟩ ![0] hi dst)
          (extf (F := Ideal) .f32
            (Host.gather (rowGather N E C wfg)
              (truncf (F := Ideal) .bf16
                (mulf (F := Ideal) (φ := .f32) H
                  (broadcastInDim ⟨2, ![N, C]⟩ ![0, 1] h2 (broadcastInDim ⟨2, ![N, 1]⟩ ![0] h1 D))) hlt)
              (broadcastInDim ⟨2, ![E, 1]⟩ ![0] hi src')) hlt'))
      = Host.scatterAdd (F := Ideal) (φ := .f32) (rowScatter N E C wfs)
          (mulf (F := Ideal) (φ := .f32)
            (broadcastInDim ⟨2, ![N, C]⟩ ![0, 1] h2 (broadcastInDim ⟨2, ![N, 1]⟩ ![0] h1 D)) Z)
          (broadcastInDim ⟨2, ![E, 1]⟩ ![0] hi dst)
          (mulf (F := Ideal) (φ := .f32)
            (Host.gather (rowGather N E C wfg) H (broadcastInDim ⟨2, ![E, 1]⟩ ![0] hi src'))
            (broadcastInDim ⟨2, ![E, C]⟩ ![0, 1] he2 (broadcastInDim ⟨2, ![E, 1]⟩ ![0] hi'
              (mulf (F := Ideal) (φ := .f32)
                (Host.gather (vecGather N E wfv) D (broadcastInDim ⟨2, ![E, 1]⟩ ![0] hi src'))
                (Host.gather (vecGather N E wfv) D (broadcastInDim ⟨2, ![E, 1]⟩ ![0] hi dst')))))) :=
  layer_eq hN wfg wfv wfs H Z D hD src' dst dst' hdst h1 h2 hi hi' he2

/-- A product with an array of zeros is that array: `x · 0 = 0` for every extended real `x`, the infinities included. -/
theorem mulf_zeros {s : Shape} {φ : FTy} (A Z : s.Idx → EReal) (hZ : ∀ i, Z i = 0) :
    mulf (F := Ideal) (φ := φ) A Z = Z := by
  funext i
  rw [mulf_apply, hZ i, mul_zero]

/-- The layer theorem (with the format changes around the gather) over an operand of zeros: the same operand on both
    sides. -/
theorem layer_eq_conv_zero {N E C : Nat} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H Z : (⟨2, ![N, C]⟩ : Shape).Idx → EReal) (hZ : ∀ i, Z i = 0) (D : (⟨1, ![N]⟩ : Shape).Idx → EReal)
    (hD : ∀ i, ∃ r : ℝ, 0 ≤ r ∧ D i = (r : EReal))
    (src' dst dst' : IVec ⟨1, ![E]⟩ 32)
    (hdst : ∀ e, 0 ≤ (dst e).toInt → dst' e = dst e)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (hi hi' : (⟨1, ![E]⟩ : Shape).BroadcastsInDim ⟨2, ![E, 1]⟩ (![0] : Fin 1 → Fin 2))
    (he2 : (⟨2, ![E, 1]⟩ : Shape).BroadcastsInDim ⟨2, ![E, C]⟩ (![0, 1] : Fin 2 → Fin 2))
    (hlt : FTy.bf16.bits < FTy.f32.bits) (hlt' : FTy.bf16.bits < FTy.f32.bits) :
    mulf (F := Ideal) (φ := .f32)
        (broadcastInDim ⟨2, ![N, C]⟩ ![0, 1] h2 (broadcastInDim ⟨2, ![N, 1]⟩ ![0] h1 D))
        (Host.scatterAdd (F := Ideal) (φ := .f32) (rowScatter N E C wfs) Z
          (broadcastInDim ⟨2, ![E, 1]⟩ ![0] hi dst)
          (extf (F := Ideal) .f32
            (Host.gather (rowGather N E C wfg)
              (truncf (F := Ideal) .bf16
                (mulf (F := Ideal) (φ := .f32) H
                  (broadcastInDim ⟨2, ![N, C]⟩ ![0, 1] h2 (broadcastInDim ⟨2, ![N, 1]⟩ ![0] h1 D))) hlt)
              (broadcastInDim ⟨2, ![E, 1]⟩ ![0] hi src')) hlt'))
      = Host.scatterAdd (F := Ideal) (φ := .f32) (rowScatter N E C wfs) Z
          (broadcastInDim ⟨2, ![E, 1]⟩ ![0] hi dst)
          (mulf (F := Ideal) (φ := .f32)
            (Host.gather (rowGather N E C wfg) H (broadcastInDim ⟨2, ![E, 1]⟩ ![0] hi src'))
            (broadcastInDim ⟨2, ![E, C]⟩ ![0, 1] he2 (broadcastInDim ⟨2, ![E, 1]⟩ ![0] hi'
              (mulf (F := Ideal) (φ := .f32)
                (Host.gather (vecGather N E wfv) D (broadcastInDim ⟨2, ![E, 1]⟩ ![0] hi src'))
                (Host.gather (vecGather N E wfv) D (broadcastInDim ⟨2, ![E, 1]⟩ ![0] hi dst')))))) := by
  rw [layer_eq_conv hN wfg wfv wfs H Z D hD src' dst dst' hdst h1 h2 hi hi' he2 hlt hlt', mulf_zeros _ Z hZ]

end Layer

/-! ## The scale: an inverse square root where the degree is positive, zero elsewhere -/

section Scale

/-- The inverse square root of a positive extended real is a nonnegative real (`0` at `⊤`, `(√x)⁻¹` at a real `x`). -/
theorem rsqrt_nonneg_of_pos (d : EReal) (hd : 0 < d) : ∃ r : ℝ, 0 ≤ r ∧ Ideal.rsqrt d = (r : EReal) := by
  induction d using EReal.rec with
  | bot => exact absurd hd (not_lt_bot)
  | top => exact ⟨0, le_refl 0, by rw [Ideal.rsqrt_top]; rfl⟩
  | coe x =>
    have hx : 0 < x := EReal.coe_pos.mp hd
    refine ⟨(Real.sqrt x)⁻¹, inv_nonneg.mpr (Real.sqrt_nonneg x), ?_⟩
    rw [Ideal.rsqrt_coe, if_neg (not_lt.mpr hx.le), if_neg (ne_of_gt hx)]

/-- ONE ELEMENT OF THE SCALE: the inverse square root of `d` selected where `d > 0`, a zero elsewhere, is a nonnegative
    real — for every extended real `d`, the infinities and the negative reals included. -/
theorem dinv_nonneg (d z0 z : EReal) (hz0 : z0 = 0) (hz : z = 0) :
    ∃ r : ℝ, 0 ≤ r ∧ Scalar.select (Scalar.cmpf (F := Ideal) (φ := .f32) .ogt d z0) (Ideal.rsqrt d) z = (r : EReal) := by
  subst hz0 hz
  by_cases hd : (0 : EReal) < d
  · obtain ⟨r, hr, he⟩ := rsqrt_nonneg_of_pos d hd
    refine ⟨r, hr, ?_⟩
    have hc : Scalar.cmpf (F := Ideal) (φ := .f32) .ogt d 0 = 1#1 := by
      rw [Ideal.scalar_cmpf_def]; unfold Ideal.cmp; simp [hd]
    rw [hc, select_one, he]
  · refine ⟨0, le_refl 0, ?_⟩
    have hc : Scalar.cmpf (F := Ideal) (φ := .f32) .ogt d 0 = 0#1 := by
      rw [Ideal.scalar_cmpf_def]; unfold Ideal.cmp; simp [hd]
    rw [hc, select_zero]; rfl

/-- THE SCALE IS A NONNEGATIVE REAL EVERYWHERE: `select (deg > 0) (rsqrt deg) 0` over any shape. -/
theorem dinv_nonneg_vec {s : Shape} (deg zeros zeros' : s.Idx → EReal)
    (hz : ∀ i, zeros i = 0) (hz' : ∀ i, zeros' i = 0) (i : s.Idx) :
    ∃ r : ℝ, 0 ≤ r ∧ select (cmpf (F := Ideal) (φ := .f32) .ogt deg zeros)
      (Host.rsqrt (F := Ideal) (φ := .f32) deg) zeros' i = (r : EReal) :=
  dinv_nonneg (deg i) (zeros i) (zeros' i) (hz i) (hz' i)

/-- The `f32` zero scalar broadcast to any shape reads `0` everywhere. -/
theorem zeros_apply {t : Shape} (h : (⟨0, ![]⟩ : Shape).BroadcastsInDim t (![] : Fin 0 → Fin t.rank)) (i : t.Idx) :
    broadcastInDim t ![] h (constant (F := Ideal) ⟨0, ![]⟩ .f32 0x00000000#32) i = (0 : EReal) :=
  Ideal.ofBits_zero_f32

/-- The scale with its two zero arrays the broadcast `f32` zero scalar, as a program writes
    `where(deg > 0, rsqrt(deg), 0)`. -/
theorem dinv_nonneg_zeros {s : Shape} (deg : s.Idx → EReal)
    (h h' : (⟨0, ![]⟩ : Shape).BroadcastsInDim s (![] : Fin 0 → Fin s.rank)) (i : s.Idx) :
    ∃ r : ℝ, 0 ≤ r ∧ select
      (cmpf (F := Ideal) (φ := .f32) .ogt deg (broadcastInDim s ![] h (constant (F := Ideal) ⟨0, ![]⟩ .f32 0x00000000#32)))
      (Host.rsqrt (F := Ideal) (φ := .f32) deg)
      (broadcastInDim s ![] h' (constant (F := Ideal) ⟨0, ![]⟩ .f32 0x00000000#32)) i = (r : EReal) :=
  dinv_nonneg_vec deg _ _ (zeros_apply h) (zeros_apply h') i

/-- The same with the second zero scalar passed through an identity conversion before its broadcast. -/
theorem dinv_nonneg_where {s : Shape} (deg : s.Idx → EReal)
    (h h' : (⟨0, ![]⟩ : Shape).BroadcastsInDim s (![] : Fin 0 → Fin s.rank)) (i : s.Idx) :
    ∃ r : ℝ, 0 ≤ r ∧ select
      (cmpf (F := Ideal) (φ := .f32) .ogt deg (broadcastInDim s ![] h (constant (F := Ideal) ⟨0, ![]⟩ .f32 0x00000000#32)))
      (Host.rsqrt (F := Ideal) (φ := .f32) deg)
      (broadcastInDim s ![] h' (id (constant (F := Ideal) ⟨0, ![]⟩ .f32 0x00000000#32))) i = (r : EReal) :=
  dinv_nonneg_zeros deg h h' i

end Scale

end Cert.LibSegment

end
-- ==== Proof.Bridge.lean ====
/-
  The two programs compute one function.

  Their pieces agree one by one: the source and target vectors and dinv are the same operations of the edge array in
  both; dinv is everywhere a nonnegative real (the inverse square root of a positive extended real, or zero); a gather
  index that is already nonnegative is left alone by the index normalization; a product with the zero array is the
  zero array. With these the kernel's layer (rows scaled by dinv before the gather, sums scaled by dinv after) is the
  reference's layer (each edge's row weighted by dinv(source) · dinv(target)), and the two networks — matrix product,
  layer, positive part, matrix product, layer — are equal on the extended reals, for ALL inputs: no finiteness of the
  features or the weights is used.
-/
import proofs.«126492_j79388175499492_2_alg».proof.Proof.LibSegment
import proofs.«126492_j79388175499492_2_alg».proof.Proof.KernelValue
import proofs.«126492_j79388175499492_2_alg».proof.Proof.RefValue
import proofs.«126492_j79388175499492_2_alg».proof.Proof.Spec
import Idealize.ShloMosaic.Lib.ValueIdx

set_option maxRecDepth 16384

noncomputable section

namespace Cert.Bridge

open Idealize.ShloMosaic Idealize.ShloMosaic.ValueIdx

/-! ## The pieces the two programs share -/

theorem src_eq (ei : IVec Cert.KernelIdeal.S2x1600000 32) : Cert.KernelIdeal.Net.srcOf ei = Cert.ReferenceIdeal.Net.srcOf ei := rfl
theorem dst_eq (ei : IVec Cert.KernelIdeal.S2x1600000 32) : Cert.KernelIdeal.Net.dstOf ei = Cert.ReferenceIdeal.Net.dstOf ei := rfl
theorem dinv_eq (d : IVec Cert.KernelIdeal.S1700000 32) : Cert.KernelIdeal.Net.dinv (F := Ideal) d = Cert.ReferenceIdeal.Net.dinv (F := Ideal) d := rfl
theorem relu_eq (X : FVec Ideal Cert.KernelIdeal.S100000x64 .f32) : Cert.KernelIdeal.Net.relu64 (F := Ideal) X = Cert.ReferenceIdeal.Net.relu64 (F := Ideal) X := rfl

/-- A product with the array of zeros is the array of zeros (on the extended reals x · 0 = 0 for every x). -/
theorem mul_zeros {s : Shape} (dims : Fin 0 → Fin s.rank) (h : (⟨0, ![]⟩ : Shape).BroadcastsInDim s dims) (X : s.Idx → EReal) :
    mulf (F := Ideal) (φ := .f32) X (broadcastInDim s dims h (constant (F := Ideal) ⟨0, ![]⟩ .f32 0x00000000#32))
      = broadcastInDim s dims h (constant (F := Ideal) ⟨0, ![]⟩ .f32 0x00000000#32) := by
  funext i
  show X i * Ideal.ofBits .f32 0x00000000#32 = Ideal.ofBits .f32 0x00000000#32
  rw [Ideal.ofBits_zero_f32, mul_zero]

/-- The index normalization (a negative index has the node count added) leaves a nonnegative index alone. -/
theorem normIdx_of_nonneg (v : IVec Cert.ReferenceIdeal.S1700000 32) (e : Cert.ReferenceIdeal.S1700000.Idx) (h : 0 ≤ (v e).toInt) :
    Cert.ReferenceIdeal.Net.normIdx v e = v e := by
  have hs : (v e).slt 0#32 = false := by
    simp only [BitVec.slt, BitVec.toInt_zero, decide_eq_false_iff_not, not_lt]
    exact h
  show Scalar.select (IntOp.cmpi .slt (v e) 0#32) (IntOp.addi (v e) 100000#32) (v e) = v e
  have hc : IntOp.cmpi .slt (v e) 0#32 = 0#1 := by
    simp only [IntOp.cmpi, hs]
    rfl
  rw [hc]
  exact select_zero _ _

/-- One layer, 64 columns: scaling rows by dinv before the gather and the sums by dinv after it is the same as weighting
    every edge's row by dinv(source) · dinv(target) — dinv(target) is one nonnegative real factor common to all the edges
    that land on a row, and a nonnegative real factor distributes over a sum of extended reals. -/
theorem layer64_eq (H : FVec Ideal Cert.KernelIdeal.S100000x64 .f32) (D : FVec Ideal Cert.KernelIdeal.S100000 .f32)
    (hD : ∀ i, ∃ r : ℝ, 0 ≤ r ∧ D i = (r : EReal)) (src dst : IVec Cert.KernelIdeal.S1700000 32) (b : FVec Ideal Cert.KernelIdeal.S64 .f32) :
    Cert.KernelIdeal.Net.pre64 (F := Ideal) H D src dst b = Cert.ReferenceIdeal.Net.pre64 (F := Ideal) H D src dst b := by
  have key := Cert.LibSegment.layer_eq (N := 100000) (E := 1700000) (C := 64) (by decide)
    Cert.KernelIdeal.Gen.gather_S100000x64_S1700000x1_S1700000x64_1_0_n_n_0_1_164_wf
    Cert.ReferenceIdeal.Gen.gather_S100000_S1700000x1_S1700000_n_0_n_n_0_1_1_wf
    Cert.KernelIdeal.Gen.scatter_S100000x64_S1700000x1_S1700000x64_1_0_0_1_wf
    H (broadcastInDim Cert.KernelIdeal.S100000x64 ![] Cert.KernelIdeal.Facts₀.bcast_S_S100000x64 (constant (F := Ideal) Cert.KernelIdeal.S_ .f32 0x00000000#32)) D hD
    (Cert.ReferenceIdeal.Net.normIdx src) dst (Cert.ReferenceIdeal.Net.normIdx dst) (fun e he => normIdx_of_nonneg dst e he)
    Cert.KernelIdeal.Facts₀.bcast_S100000_S100000x1_0 Cert.KernelIdeal.Facts₀.bcast_S100000x1_S100000x64_0_1
    Cert.KernelIdeal.Facts₀.bcast_S1700000_S1700000x1_0 Cert.KernelIdeal.Facts₀.bcast_S1700000_S1700000x1_0
    Cert.ReferenceIdeal.Facts₀.bcast_S1700000x1_S1700000x64_0_1
  rw [mul_zeros] at key
  have hA : mulf (F := Ideal) (φ := .f32) (Cert.KernelIdeal.Net.col64 D) (Cert.KernelIdeal.Net.agg64 H D src dst) = Cert.ReferenceIdeal.Net.agg64 H D src dst := key
  unfold Cert.KernelIdeal.Net.pre64 Cert.ReferenceIdeal.Net.pre64
  rw [hA]

/-- One layer, 32 columns: scaling rows by dinv before the gather and the sums by dinv after it is the same as weighting
    every edge's row by dinv(source) · dinv(target) — dinv(target) is one nonnegative real factor common to all the edges
    that land on a row, and a nonnegative real factor distributes over a sum of extended reals. -/
theorem layer32_eq (H : FVec Ideal Cert.KernelIdeal.S100000x32 .f32) (D : FVec Ideal Cert.KernelIdeal.S100000 .f32)
    (hD : ∀ i, ∃ r : ℝ, 0 ≤ r ∧ D i = (r : EReal)) (src dst : IVec Cert.KernelIdeal.S1700000 32) (b : FVec Ideal Cert.KernelIdeal.S32 .f32) :
    Cert.KernelIdeal.Net.out32 (F := Ideal) H D src dst b = Cert.ReferenceIdeal.Net.out32 (F := Ideal) H D src dst b := by
  have key := Cert.LibSegment.layer_eq (N := 100000) (E := 1700000) (C := 32) (by decide)
    Cert.KernelIdeal.Gen.gather_S100000x32_S1700000x1_S1700000x32_1_0_n_n_0_1_132_wf
    Cert.ReferenceIdeal.Gen.gather_S100000_S1700000x1_S1700000_n_0_n_n_0_1_1_wf
    Cert.KernelIdeal.Gen.scatter_S100000x32_S1700000x1_S1700000x32_1_0_0_1_wf
    H (broadcastInDim Cert.KernelIdeal.S100000x32 ![] Cert.KernelIdeal.Facts₀.bcast_S_S100000x32 (constant (F := Ideal) Cert.KernelIdeal.S_ .f32 0x00000000#32)) D hD
    (Cert.ReferenceIdeal.Net.normIdx src) dst (Cert.ReferenceIdeal.Net.normIdx dst) (fun e he => normIdx_of_nonneg dst e he)
    Cert.KernelIdeal.Facts₀.bcast_S100000_S100000x1_0 Cert.KernelIdeal.Facts₀.bcast_S100000x1_S100000x32_0_1
    Cert.KernelIdeal.Facts₀.bcast_S1700000_S1700000x1_0 Cert.KernelIdeal.Facts₀.bcast_S1700000_S1700000x1_0
    Cert.ReferenceIdeal.Facts₀.bcast_S1700000x1_S1700000x32_0_1
  rw [mul_zeros] at key
  have hA : mulf (F := Ideal) (φ := .f32) (Cert.KernelIdeal.Net.col32 D) (Cert.KernelIdeal.Net.agg32 H D src dst) = Cert.ReferenceIdeal.Net.agg32 H D src dst := key
  unfold Cert.KernelIdeal.Net.out32 Cert.ReferenceIdeal.Net.out32
  rw [hA]

/-! ## dinv is a nonnegative real everywhere, and the networks agree -/

/-- dinv is, at every node, a nonnegative real: where the degree is a positive extended real its inverse square root
    is one (0 at an infinite degree), and elsewhere dinv is 0. -/
theorem dinv_nonneg (d : IVec Cert.ReferenceIdeal.S1700000 32) (i : Cert.ReferenceIdeal.S100000.Idx) :
    ∃ r : ℝ, 0 ≤ r ∧ Cert.ReferenceIdeal.Net.dinv (F := Ideal) d i = (r : EReal) :=
  Cert.LibSegment.dinv_nonneg_where (Cert.ReferenceIdeal.Net.deg (F := Ideal) d) _ _ i

/-- The kernel's network — its two matrix products read as plain sums of products — is the reference's network. -/
theorem net_eq (x : FVec Ideal Cert.KernelIdeal.S100000x100 .f32) (ei : IVec Cert.KernelIdeal.S2x1600000 32) (w1 : FVec Ideal Cert.KernelIdeal.S100x64 .f32)
    (b1 : FVec Ideal Cert.KernelIdeal.S64 .f32) (w2 : FVec Ideal Cert.KernelIdeal.S64x32 .f32) (b2 : FVec Ideal Cert.KernelIdeal.S32 .f32) :
    Cert.KernelIdeal.Net.out32 (F := Ideal)
        (Cert.Spec.mm (Cert.KernelIdeal.Net.relu64 (F := Ideal) (Cert.KernelIdeal.Net.pre64 (F := Ideal) (Cert.Spec.mm x w1) (Cert.KernelIdeal.Net.dinv (F := Ideal) (Cert.KernelIdeal.Net.dstOf ei)) (Cert.KernelIdeal.Net.srcOf ei) (Cert.KernelIdeal.Net.dstOf ei) b1)) w2)
        (Cert.KernelIdeal.Net.dinv (F := Ideal) (Cert.KernelIdeal.Net.dstOf ei)) (Cert.KernelIdeal.Net.srcOf ei) (Cert.KernelIdeal.Net.dstOf ei) b2
      = Cert.ReferenceIdeal.Net.net (F := Ideal) x ei w1 b1 w2 b2 := by
  have hD : ∀ i, ∃ r : ℝ, 0 ≤ r ∧ Cert.KernelIdeal.Net.dinv (F := Ideal) (Cert.KernelIdeal.Net.dstOf ei) i = (r : EReal) := fun i => dinv_nonneg (Cert.ReferenceIdeal.Net.dstOf ei) i
  rw [layer32_eq _ _ hD, layer64_eq _ _ hD]
  unfold Cert.ReferenceIdeal.Net.net
  rw [Cert.ReferenceIdeal.Net.dot1_eq_mm, Cert.ReferenceIdeal.Net.dot2_eq_mm]
  rfl

end Cert.Bridge

end
-- ==== Proof.KernelFinal.lean ====
/-
  The idealized kernel program's result, as a function of its six arguments — and that function is the reference's.

  The result buffer ends at the second layer of the second region's output array; that array is the matrix product of
  the region's input (the positive part of the first layer of the first region's output array) and the second weight
  matrix; the first region's output array is the product of the features and the first weight matrix. Every array and
  vector in between has been followed back to the launch memory, so the whole is the kernel's network of the six
  argument arrays, which is the reference's network.
-/
import proofs.«126492_j79388175499492_2_alg».proof.Proof.KernelChain
import proofs.«126492_j79388175499492_2_alg».proof.Proof.Region0
import proofs.«126492_j79388175499492_2_alg».proof.Proof.Region1
import proofs.«126492_j79388175499492_2_alg».proof.Proof.Bridge

set_option maxRecDepth 16384

noncomputable section

namespace Cert.KernelIdeal.Final

open Cert.KernelIdeal Cert.KernelIdeal.Gen Cert.KernelIdeal.Net
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- What the second region finds in its input array: the positive part of the first layer of X·W1. -/
theorem region1_input :
    V5 m ρ c main_v37 = relu64 (F := Ideal) (pre64 (F := Ideal) (Cert.Spec.mm (m ((c : Thread nD τ).loc main_arg0)) (m ((c : Thread nD τ).loc main_arg2)))
      (dinv (F := Ideal) (dstOf (m ((c : Thread nD τ).loc main_arg1)))) (srcOf (m ((c : Thread nD τ).loc main_arg1))) (dstOf (m ((c : Thread nD τ).loc main_arg1))) (m ((c : Thread nD τ).loc main_arg3))) := by
  have a0 : V2 m ρ c main_arg0 = (m ((c : Thread nD τ).loc main_arg0)) := w2_main_arg0 m ρ c
  have a2 : V2 m ρ c main_arg2 = (m ((c : Thread nD τ).loc main_arg2)) := w2_main_arg2 m ρ c
  show W5 m ρ c (Proc.devRef .tc main_v37) = _
  rw [w5_v37 m ρ c, Cert.KernelIdeal.Region0.arr (V2 m ρ) c, a0, a2]

/-- The result buffer at the last boundary is the reference's network of the launch contents of the six arguments. -/
theorem value :
    W7 m ρ c (Proc.devRef .tc main_v59)
      = Cert.ReferenceIdeal.Net.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have a4 : V5 m ρ c main_arg4 = (m ((c : Thread nD τ).loc main_arg4)) := w5_main_arg4 m ρ c
  rw [w7_v59 m ρ c, Cert.KernelIdeal.Region1.arr (V5 m ρ) c, region1_input m ρ c, a4]
  exact Cert.Bridge.net_eq _ _ _ _ _ _

end Cert.KernelIdeal.Final

end
-- ==== Proof.lean ====
/-
  The proof of the certificate's claim.

  Both programs are a two-layer graph convolution: node features times a weight matrix, then — with one self-loop per
  node appended, deg(v) the number of edges into v and dinv = deg^(-1/2) (0 where deg is not positive) — every node
  v receives the sum over the edges e into v of the source's row times dinv(source) · dinv(v), plus a bias; the
  positive part between the layers. The kernel program computes the two matrix products in TensorCore regions, ten
  row blocks each, and factors the per-edge weight: it scales row u by dinv(u) before the gather and the summed row
  v by dinv(v) after it. The reference multiplies every gathered row by its edge's weight.

  On the extended reals the two agree for every input: a row block's product entry is the same sum of products as
  the whole array's; dinv(v) is a nonnegative real, and a nonnegative real factor distributes over a sum of extended
  reals whatever the summands; multiplication is commutative and associative; an edge lands on row v exactly when
  its target index is v, and then the reference's gather of dinv at the (normalized, clamped) target reads dinv(v).
  So the algebraic claim needs nothing of the precondition. The three frame claims are the generated frame runs (the
  reference's: its run with the result dropped), and the idealization rewrote no operation.
-/
import proofs.«126492_j79388175499492_2_alg».proof.Defs
import proofs.«126492_j79388175499492_2_alg».proof.Proof.Gen.Kernel
import proofs.«126492_j79388175499492_2_alg».proof.Proof.Gen.Kernel.Skeleton
import proofs.«126492_j79388175499492_2_alg».proof.Proof.Gen.Kernel.Launch
import proofs.«126492_j79388175499492_2_alg».proof.Proof.Gen.Kernel.Points
import proofs.«126492_j79388175499492_2_alg».proof.Proof.Gen.Kernel.Frame
import proofs.«126492_j79388175499492_2_alg».proof.Proof.Gen.KernelIdeal
import proofs.«126492_j79388175499492_2_alg».proof.Proof.Gen.KernelIdeal.Skeleton
import proofs.«126492_j79388175499492_2_alg».proof.Proof.Gen.KernelIdeal.Launch
import proofs.«126492_j79388175499492_2_alg».proof.Proof.Gen.KernelIdeal.Points
import proofs.«126492_j79388175499492_2_alg».proof.Proof.Gen.KernelIdeal.Frame
import proofs.«126492_j79388175499492_2_alg».proof.Proof.Gen.ReferenceIdeal
import proofs.«126492_j79388175499492_2_alg».proof.Proof.Gen.Pre_finite_inputs
import proofs.«126492_j79388175499492_2_alg».proof.Proof.RefRun
import proofs.«126492_j79388175499492_2_alg».proof.Proof.RefValue
import proofs.«126492_j79388175499492_2_alg».proof.Proof.KernelRun
import proofs.«126492_j79388175499492_2_alg».proof.Proof.KernelFinal
import Idealize.ShloMosaic.Adequacy
import Idealize.ShloMosaic.Init

noncomputable section

namespace Cert.Proof

open Idealize.ShloMosaic Idealize.SL.Sem

/-- The word-level kernel program runs and leaves its arguments as launched: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six arguments both programs end with the reference's network of those arguments
    in their result arrays. -/
theorem algebraic : Cert.algebraic_KernelIdeal_ReferenceIdeal := by
  intro m ρ m' ρ' _ hagree
  refine ⟨fun c => Cert.ReferenceIdeal.Net.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Final.value m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Net.res_eq_net m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
